-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 88
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x128, .f32⟩
  | .hbm, ⟨43, _⟩ => ⟨S1600000x128, .i1⟩
  | .hbm, ⟨44, _⟩ => ⟨S_, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x1, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1, .i32⟩
  | .hbm, ⟨65, _⟩ => ⟨S_, .i32⟩
  | .hbm, ⟨66, _⟩ => ⟨S1600000x1, .i32⟩
  | .hbm, ⟨67, _⟩ => ⟨S1600000x1, .i1⟩
  | .hbm, ⟨68, _⟩ => ⟨S1x1, .i32⟩
  | .hbm, ⟨69, _⟩ => ⟨S1600000x1, .i32⟩
  | .hbm, ⟨70, _⟩ => ⟨S1600000x1, .i1⟩
  | .hbm, ⟨71, _⟩ => ⟨S1600000x1, .i1⟩
  | .hbm, ⟨72, _⟩ => ⟨S_, .i1⟩
  | .hbm, ⟨73, _⟩ => ⟨S1600000, .i1⟩
  | .hbm, ⟨74, _⟩ => ⟨S1600000x128, .f32⟩
  | .hbm, ⟨75, _⟩ => ⟨S1600000x128, .i1⟩
  | .hbm, ⟨76, _⟩ => ⟨S_, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v12 : Ref sig .tc := ⟨.hbm, 46, rfl⟩
abbrev main_cst_3 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v21 : Ref sig .tc := ⟨.hbm, 78, rfl⟩
abbrev main_cst_4 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x128, .f32⟩
  | .hbm, ⟨31, _⟩ => ⟨S1600000x128, .i1⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S128x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1, .i32⟩
  | .hbm, ⟨71, _⟩ => ⟨S_, .i32⟩
  | .hbm, ⟨72, _⟩ => ⟨S1600000x1, .i32⟩
  | .hbm, ⟨73, _⟩ => ⟨S1600000x1, .i1⟩
  | .hbm, ⟨74, _⟩ => ⟨S1x1, .i32⟩
  | .hbm, ⟨75, _⟩ => ⟨S1600000x1, .i32⟩
  | .hbm, ⟨76, _⟩ => ⟨S1600000x1, .i1⟩
  | .hbm, ⟨77, _⟩ => ⟨S1600000x1, .i1⟩
  | .hbm, ⟨78, _⟩ => ⟨S_, .i1⟩
  | .hbm, ⟨79, _⟩ => ⟨S1600000, .i1⟩
  | .hbm, ⟨80, _⟩ => ⟨S1600000x128, .f32⟩
  | .hbm, ⟨81, _⟩ => ⟨S1600000x128, .i1⟩
  | .hbm, ⟨82, _⟩ => ⟨S_, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S_, .f32⟩
  | .hbm, ⟨90, _⟩ => ⟨S1600000, .f32⟩
  | .hbm, ⟨91, _⟩ => ⟨S_, .f32⟩
  | .hbm, ⟨92, _⟩ => ⟨S100000, .f32⟩
  | .hbm, ⟨93, _⟩ => ⟨S1600000x1, .i32⟩
  | .hbm, ⟨94, _⟩ => ⟨S100000, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S128x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S128x128, .f32⟩
  | .hbm, ⟨107, _⟩ => ⟨S100000x128, .f32⟩
  | .hbm, ⟨108, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call1_cst : Ref sig .tc := ⟨.hbm, 59, rfl⟩
abbrev main_call1_v0 : Ref sig .tc := ⟨.hbm, 60, rfl⟩
abbrev main_v25 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v26 : Ref sig .tc := ⟨.hbm, 84, rfl⟩
abbrev main_cst_3 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_cst_4 : Ref sig .tc := ⟨.hbm, 89, rfl⟩
abbrev main_v30 : Ref sig .tc := ⟨.hbm, 90, rfl⟩
abbrev main_cst_5 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_cst_6 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibTransposedDot.lean ====
/-
  A product with the right operand transposed, read at an index, on the extended reals.

  For the dimension numbers of an M×K by N×K product (contract the left operand's axis 1 with the
  right operand's axis 1, no batch axis), the entry (p, q) of the product is ∑ k, a[p, k] · b[q, k]:
  for a matmul into the zero splat and for the host's dot_general. The contraction's one-axis index
  is re-indexed to its coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's row coordinate is the output's row. -/
theorem lhs_row (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's row coordinate is the output's column. -/
theorem rhs_row (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, q) and contraction coordinate k is (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => exact lhs_row M K N (ix2 p q) _
  | ⟨1, _⟩ => exact ((DotDims.transposedRhs M K N).lhsIdx_val_of_single rfl (ix2 p q) _).trans hk

/-- The right operand's index at output (p, q) and contraction coordinate k is (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => exact rhs_row M K N (ix2 p q) _
  | ⟨1, _⟩ => exact ((DotDims.transposedRhs M K N).rhsIdx_val_of_single rfl (ix2 p q) _).trans hk

/-- The contraction sum at (p, q) is the sum over the shared last coordinate. -/
theorem contr_sum (a : (⟨2, ![M, K]⟩ : Shape).Idx → EReal) (b : (⟨2, ![N, K]⟩ : Shape).Idx → EReal) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  rw [lhsIdx_eq, rhsIdx_eq]

/-- A matmul into the zero splat, read at (p, q). -/
theorem matmul_zero_apply {φ₁ φ₂ : FTy} (prec : Option ContractPrecision)
    (a : FVec Ideal ⟨2, ![M, K]⟩ φ₁) (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) :=
  (Ideal.matmul_constant_zero_apply (DotDims.transposedRhs M K N) prec a b (ix2 p q)).trans (contr_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q) = ∑ k : Fin K, a (ix2 p k) * b (ix2 q k) :=
  (Ideal.dotGeneral_apply (DotDims.transposedRhs M K N) prec sched a b (ix2 p q)).trans (contr_sum M K N a b p q)

end Idealize.ShloMosaic.TransposedDot

end
-- ==== Proof.KernelBody.lean ====
/-
  The kernel body's stored value at an entry of its block.

  Both pallas_calls run the same body on a block of 5000 node rows: two products of a [5000, 128] block against a
  [128, 128] weight matrix, each contracting the blocks' second axes (entry (r, q) is ∑ₖ block(r, k) · W(q, k)), into a zero
  accumulator, the bias row broadcast over the rows between them; the changes of float format are the identity on the
  extended reals. The first call then takes the larger of the result and 0; the second does not.
-/
import proofs.«152399_j53850299957912_1_alg».proof.Proof.Gen.KernelIdeal.Skeleton
import proofs.«152399_j53850299957912_1_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

variable [Cert.KernelIdeal.Facts]

/-- The body's product contracts axis 1 of a [5000, 128] block with axis 1 of a [128, 128] matrix. -/
theorem dot_eq : dot_S5000x128_S128x128_S5000x128_1_1_0_0_n_n = DotDims.transposedRhs 5000 128 128 := rfl

/-- The first call's stored value at row r, feature q of the block. -/
theorem pay0_at (a x : Vec Ideal S5000x128 .f32) (wl wr : Vec Ideal S128x128 .f32) (b : Vec Ideal S1x128 .f32) (r : Fin 5000) (q : Fin 128) :
    k0_pay1 (F := Ideal) a x wl wr b (ix2 r q)
      = max (((∑ k : Fin 128, a (ix2 r k) * wl (ix2 q k)) + b (ix2 (0 : Fin 1) q)) + ∑ k : Fin 128, x (ix2 r k) * wr (ix2 q k)) 0 := by
  unfold k0_pay1
  simp only [shapeCast_self, dot_eq, matmul]
  rw [maximumf_apply, addf_apply, addf_apply, TransposedDot.matmul_zero_apply, TransposedDot.matmul_zero_apply, broadcastTo_1b_ab_apply, broadcast_apply]
  simp only [truncf_apply]
  exact congrArg (max _) Ideal.ofBits_zero_f32

/-- The second call's stored value at row r, feature q of the block. -/
theorem pay1_at (a x : Vec Ideal S5000x128 .f32) (wl wr : Vec Ideal S128x128 .f32) (b : Vec Ideal S1x128 .f32) (r : Fin 5000) (q : Fin 128) :
    k1_pay1 (F := Ideal) a x wl wr b (ix2 r q)
      = ((∑ k : Fin 128, a (ix2 r k) * wl (ix2 q k)) + b (ix2 (0 : Fin 1) q)) + ∑ k : Fin 128, x (ix2 r k) * wr (ix2 q k) := by
  unfold k1_pay1
  simp only [shapeCast_self, dot_eq, matmul]
  rw [addf_apply, addf_apply, TransposedDot.matmul_zero_apply, TransposedDot.matmul_zero_apply, broadcastTo_1b_ab_apply]
  simp only [truncf_apply]

end Cert.KernelIdeal.Body

end
-- ==== Proof.Spec.lean ====
/-
  One SAGE layer's dense part, entry by entry, on the extended reals.

  For a node p and an output feature q the layer adds three things: the aggregated neighbour row A(p, ·) against
  row q of the left weights, the bias b(q), and the node's own row X(p, ·) against row q of the right weights,
      lin(p, q) = (∑ₖ A(p, k) · Wl(q, k) + b(q)) + ∑ₖ X(p, k) · Wr(q, k),
  in exactly this grouping (sums and products on the extended reals are commutative and associative, but nothing
  here is regrouped). The first layer then takes the larger of that number and 0.
-/
import Idealize.ShloMosaic.Lib.ValueIdx
import Idealize.ShloMosaic.PureOps.Ideal

noncomputable section

open scoped BigOperators

namespace Cert.Sage

open Idealize.ShloMosaic Idealize.ShloMosaic.ValueIdx

/-- Node features and aggregated features: 100000 nodes, 128 features. -/
abbrev SNode : Shape := ⟨2, ![100000, 128]⟩
/-- A weight matrix: 128 output features by 128 input features. -/
abbrev SW : Shape := ⟨2, ![128, 128]⟩
/-- A bias: one number per output feature. -/
abbrev SB : Shape := ⟨1, ![128]⟩

/-- The layer's dense part at node p, output feature q. -/
def linAt (A X : SNode.Idx → EReal) (Wl : SW.Idx → EReal) (b : SB.Idx → EReal) (Wr : SW.Idx → EReal)
    (p : Fin 100000) (q : Fin 128) : EReal :=
  ((∑ k : Fin 128, A (ix2 p k) * Wl (ix2 q k)) + b (ix1 q)) + ∑ k : Fin 128, X (ix2 p k) * Wr (ix2 q k)

/-- The layer's dense part as an array. -/
def lin (A X : SNode.Idx → EReal) (Wl : SW.Idx → EReal) (b : SB.Idx → EReal) (Wr : SW.Idx → EReal) : SNode.Idx → EReal :=
  fun i => linAt A X Wl b Wr (i 0) (i 1)

/-- The first layer: the dense part, then the larger of it and 0. -/
def linRelu (A X : SNode.Idx → EReal) (Wl : SW.Idx → EReal) (b : SB.Idx → EReal) (Wr : SW.Idx → EReal) : SNode.Idx → EReal :=
  fun i => max (linAt A X Wl b Wr (i 0) (i 1)) 0

theorem lin_ix2 (A X : SNode.Idx → EReal) (Wl : SW.Idx → EReal) (b : SB.Idx → EReal) (Wr : SW.Idx → EReal)
    (p : Fin 100000) (q : Fin 128) : lin A X Wl b Wr (ix2 p q) = linAt A X Wl b Wr p q := rfl

theorem linRelu_ix2 (A X : SNode.Idx → EReal) (Wl : SW.Idx → EReal) (b : SB.Idx → EReal) (Wr : SW.Idx → EReal)
    (p : Fin 100000) (q : Fin 128) : linRelu A X Wl b Wr (ix2 p q) = max (linAt A X Wl b Wr p q) 0 := rfl

/-- The dense part depends on the aggregated features only through their entries. -/
theorem lin_congr {A A' : SNode.Idx → EReal} (h : ∀ i, A i = A' i) (X : SNode.Idx → EReal) (Wl : SW.Idx → EReal)
    (b : SB.Idx → EReal) (Wr : SW.Idx → EReal) : lin A X Wl b Wr = lin A' X Wl b Wr := by
  rw [show A = A' from funext h]

end Cert.Sage

end
-- ==== Proof.KernelRegion0.lean ====
/-
  What the first pallas_call leaves in its result array, as a function of the arrays it finds at entry.

  The grid has 20 points; point t takes rows 5000·t … 5000·t + 4999 of the aggregated features and of the node features, the
  two whole weight matrices and the whole bias row, and writes rows 5000·t … 5000·t + 4999 of the result. Entry (r, q) of the
  block it writes is the layer's dense part at node 5000·t + r and feature q, the larger of it and 0: so block t of the result is
  block t of ONE function of the entry arrays, and the 20 blocks tile the [100000, 128] result.
-/
import proofs.«152399_j53850299957912_1_alg».proof.Proof.Gen.KernelIdeal.Frame
import proofs.«152399_j53850299957912_1_alg».proof.Proof.KernelBody
import proofs.«152399_j53850299957912_1_alg».proof.Proof.Spec
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The dense part over variables: a point's stored value at a block entry is the layer at the matching node, when the point's
    two row blocks are rows 5000·tv … of the arrays A and X and the other three blocks are the whole arrays. -/
theorem point_eq (A X : S100000x128.Idx → EReal) (Wl Wr : S128x128.Idx → EReal) (B : S1x128.Idx → EReal)
    (a x : Vec Ideal S5000x128 .f32) (wl wr : Vec Ideal S128x128 .f32) (b : Vec Ideal S1x128 .f32) (tv : Nat)
    (ha : ∀ (r : Fin 5000) (k : Fin 128) (p : Fin 100000), p.val = 5000 * tv + r.val → a (ix2 r k) = A (ix2 p k))
    (hx : ∀ (r : Fin 5000) (k : Fin 128) (p : Fin 100000), p.val = 5000 * tv + r.val → x (ix2 r k) = X (ix2 p k))
    (hwl : wl = Wl) (hwr : wr = Wr) (hb : b = B)
    (y : S5000x128.Idx) (i : S100000x128.Idx) (hi0 : (i 0).val = 5000 * tv + (y 0).val) (hi1 : (i 1).val = (y 1).val) :
    k0_pay1 (F := Ideal) a x wl wr b y = Cert.Sage.linRelu A X Wl (fun j => B (ix2 (0 : Fin 1) (j 0))) Wr i := by
  obtain ⟨r, q, rfl⟩ : ∃ (r : Fin 5000) (q : Fin 128), y = ix2 r q := ⟨y 0, y 1, eq_ix2 y⟩
  obtain ⟨p, q', rfl⟩ : ∃ (p : Fin 100000) (q' : Fin 128), i = ix2 p q' := ⟨i 0, i 1, eq_ix2 i⟩
  have hp : p.val = 5000 * tv + r.val := hi0
  obtain rfl : q' = q := Fin.ext hi1
  subst hwl hwr hb
  rw [Body.pay0_at, Cert.Sage.linRelu_ix2]
  unfold Cert.Sage.linAt
  simp only [ha _ _ p hp, hx _ _ p hp]

variable (V : (c : Dev nD) → (b : Ref sig .tc) → Buf (Elt Ideal) ((c : Thread nD τ).loc b))

/-- The printed index maps over the grid: the row windows move with the point, the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

/-- The bias row the call finds, as a vector over the output features. -/
def bias (c : Dev nD) : Cert.Sage.SB.Idx → EReal := fun j => (V c main_v19 : S1x128.Idx → EReal) (ix2 (0 : Fin 1) (j 0))

/-- The result array as one function of the arrays found at entry. -/
def G (c : Dev nD) : S100000x128.Idx → EReal :=
  Cert.Sage.linRelu (V c main_v18) (V c main_arg0) (V c main_arg2) (bias V c) (V c main_arg4)

/-- A row window's block at point t is rows 5000·t … of its array. -/
theorem rows0 (c : Dev nD) (t : Fin cfg0.N) (r : Fin 5000) (k : Fin 128) (p : Fin 100000) (hp : p.val = 5000 * t.val + r.val) :
    (iblk0 V c 0 t : Vec Ideal S5000x128 .f32) (ix2 r k) = (V c main_v18 : S100000x128.Idx → EReal) (ix2 p k) := by
  obtain ⟨e00, e01, -⟩ := idx_facts t
  unfold iblk0
  rw [View.read_apply]
  show V c main_v18 _ = V c main_v18 _
  congr 1
  funext a
  apply Fin.ext
  match a with
  | ⟨0, _⟩ => show win0_0.index t (0 : Fin 2) * 5000 + 1 * r.val = p.val; rw [e00, hp]; omega
  | ⟨1, _⟩ => show win0_0.index t (1 : Fin 2) * 128 + 1 * k.val = k.val; rw [e01]; omega

theorem rows1 (c : Dev nD) (t : Fin cfg0.N) (r : Fin 5000) (k : Fin 128) (p : Fin 100000) (hp : p.val = 5000 * t.val + r.val) :
    (iblk0 V c 1 t : Vec Ideal S5000x128 .f32) (ix2 r k) = (V c main_arg0 : S100000x128.Idx → EReal) (ix2 p k) := by
  obtain ⟨-, -, e10, e11, -⟩ := idx_facts t
  unfold iblk0
  rw [View.read_apply]
  show V c main_arg0 _ = V c main_arg0 _
  congr 1
  funext a
  apply Fin.ext
  match a with
  | ⟨0, _⟩ => show win0_1.index t (0 : Fin 2) * 5000 + 1 * r.val = p.val; rw [e10, hp]; omega
  | ⟨1, _⟩ => show win0_1.index t (1 : Fin 2) * 128 + 1 * k.val = k.val; rw [e11]; omega

/-- The weight windows' and the bias window's one block is the whole array. -/
theorem whole2 (c : Dev nD) (t : Fin cfg0.N) : (iblk0 V c 2 t : Vec Ideal S128x128 .f32) = (V c main_arg2 : S128x128.Idx → EReal) := by
  obtain ⟨-, -, -, -, e20, e21, -⟩ := idx_facts t
  funext y
  unfold iblk0
  rw [View.read_apply]
  show V c main_arg2 _ = V c main_arg2 _
  congr 1
  funext a
  apply Fin.ext
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

theorem whole3 (c : Dev nD) (t : Fin cfg0.N) : (iblk0 V c 3 t : Vec Ideal S1x128 .f32) = (V c main_v19 : S1x128.Idx → EReal) := by
  obtain ⟨-, -, -, -, -, -, e30, e31, -⟩ := idx_facts t
  funext y
  unfold iblk0
  rw [View.read_apply]
  show V c main_v19 _ = V c main_v19 _
  congr 1
  funext a
  apply Fin.ext
  match a with
  | ⟨0, _⟩ => show win0_3.index t (0 : Fin 2) * 1 + 1 * (y 0).val = (y 0).val; rw [e30]; omega
  | ⟨1, _⟩ => show win0_3.index t (1 : Fin 2) * 128 + 1 * (y 1).val = (y 1).val; rw [e31]; omega

theorem whole4 (c : Dev nD) (t : Fin cfg0.N) : (iblk0 V c 4 t : Vec Ideal S128x128 .f32) = (V c main_arg4 : S128x128.Idx → EReal) := by
  obtain ⟨-, -, -, -, -, -, -, -, e40, e41, -⟩ := idx_facts t
  funext y
  unfold iblk0
  rw [View.read_apply]
  show V c main_arg4 _ = V c main_arg4 _
  congr 1
  funext a
  apply Fin.ext
  match a with
  | ⟨0, _⟩ => show win0_4.index t (0 : Fin 2) * 128 + 1 * (y 0).val = (y 0).val; rw [e40]; omega
  | ⟨1, _⟩ => show win0_4.index t (1 : Fin 2) * 128 + 1 * (y 1).val = (y 1).val; rw [e41]; omega

/-- What point t writes back is block t of G. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e50, e51, -⟩ := idx_facts t
  funext j
  refine point_eq (V c main_v18) (V c main_arg0) (V c main_arg2) (V c main_arg4) (V c main_v19) _ _ _ _ _ t.val
    (rows0 V c t) (rows1 V c t) (whole2 V c t) (whole4 V c t) (whole3 V c t) j (((cfg0.win 5).blk t).view.emb j) ?_ ?_
  · show win0_5.index t (0 : Fin 2) * 5000 + 1 * (j 0).val = 5000 * t.val + (j 0).val; rw [e50]; omega
  · show win0_5.index t (1 : Fin 2) * 128 + 1 * (j 1).val = (j 1).val; rw [e51]; omega

/-- An index of the result is in point t's block iff each coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Every block row of the result is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The 20 blocks cover the result: node i₀ is in block i₀ / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the call is G of the arrays found at entry. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.KernelRegion1.lean ====
/-
  What the second pallas_call leaves in its result array, as a function of the arrays it finds at entry.

  The grid has 20 points; point t takes rows 5000·t … 5000·t + 4999 of the aggregated features and of the node features, the
  two whole weight matrices and the whole bias row, and writes rows 5000·t … 5000·t + 4999 of the result. Entry (r, q) of the
  block it writes is the layer's dense part at node 5000·t + r and feature q: so block t of the result is
  block t of ONE function of the entry arrays, and the 20 blocks tile the [100000, 128] result.
-/
import proofs.«152399_j53850299957912_1_alg».proof.Proof.Gen.KernelIdeal.Frame
import proofs.«152399_j53850299957912_1_alg».proof.Proof.KernelBody
import proofs.«152399_j53850299957912_1_alg».proof.Proof.Spec
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The dense part over variables: a point's stored value at a block entry is the layer at the matching node, when the point's
    two row blocks are rows 5000·tv … of the arrays A and X and the other three blocks are the whole arrays. -/
theorem point_eq (A X : S100000x128.Idx → EReal) (Wl Wr : S128x128.Idx → EReal) (B : S1x128.Idx → EReal)
    (a x : Vec Ideal S5000x128 .f32) (wl wr : Vec Ideal S128x128 .f32) (b : Vec Ideal S1x128 .f32) (tv : Nat)
    (ha : ∀ (r : Fin 5000) (k : Fin 128) (p : Fin 100000), p.val = 5000 * tv + r.val → a (ix2 r k) = A (ix2 p k))
    (hx : ∀ (r : Fin 5000) (k : Fin 128) (p : Fin 100000), p.val = 5000 * tv + r.val → x (ix2 r k) = X (ix2 p k))
    (hwl : wl = Wl) (hwr : wr = Wr) (hb : b = B)
    (y : S5000x128.Idx) (i : S100000x128.Idx) (hi0 : (i 0).val = 5000 * tv + (y 0).val) (hi1 : (i 1).val = (y 1).val) :
    k1_pay1 (F := Ideal) a x wl wr b y = Cert.Sage.lin A X Wl (fun j => B (ix2 (0 : Fin 1) (j 0))) Wr i := by
  obtain ⟨r, q, rfl⟩ : ∃ (r : Fin 5000) (q : Fin 128), y = ix2 r q := ⟨y 0, y 1, eq_ix2 y⟩
  obtain ⟨p, q', rfl⟩ : ∃ (p : Fin 100000) (q' : Fin 128), i = ix2 p q' := ⟨i 0, i 1, eq_ix2 i⟩
  have hp : p.val = 5000 * tv + r.val := hi0
  obtain rfl : q' = q := Fin.ext hi1
  subst hwl hwr hb
  rw [Body.pay1_at, Cert.Sage.lin_ix2]
  unfold Cert.Sage.linAt
  simp only [ha _ _ p hp, hx _ _ p hp]

variable (V : (c : Dev nD) → (b : Ref sig .tc) → Buf (Elt Ideal) ((c : Thread nD τ).loc b))

/-- The printed index maps over the grid: the row windows move with the point, the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 20 :=
  (by decide +kernel : ∀ t : Fin grid1.N, _)

/-- The bias row the call finds, as a vector over the output features. -/
def bias (c : Dev nD) : Cert.Sage.SB.Idx → EReal := fun j => (V c main_v28 : S1x128.Idx → EReal) (ix2 (0 : Fin 1) (j 0))

/-- The result array as one function of the arrays found at entry. -/
def G (c : Dev nD) : S100000x128.Idx → EReal :=
  Cert.Sage.lin (V c main_v27) (V c main_v20) (V c main_arg5) (bias V c) (V c main_arg7)

/-- A row window's block at point t is rows 5000·t … of its array. -/
theorem rows0 (c : Dev nD) (t : Fin cfg1.N) (r : Fin 5000) (k : Fin 128) (p : Fin 100000) (hp : p.val = 5000 * t.val + r.val) :
    (iblk1 V c 0 t : Vec Ideal S5000x128 .f32) (ix2 r k) = (V c main_v27 : S100000x128.Idx → EReal) (ix2 p k) := by
  obtain ⟨e00, e01, -⟩ := idx_facts t
  unfold iblk1
  rw [View.read_apply]
  show V c main_v27 _ = V c main_v27 _
  congr 1
  funext a
  apply Fin.ext
  match a with
  | ⟨0, _⟩ => show win1_0.index t (0 : Fin 2) * 5000 + 1 * r.val = p.val; rw [e00, hp]; omega
  | ⟨1, _⟩ => show win1_0.index t (1 : Fin 2) * 128 + 1 * k.val = k.val; rw [e01]; omega

theorem rows1 (c : Dev nD) (t : Fin cfg1.N) (r : Fin 5000) (k : Fin 128) (p : Fin 100000) (hp : p.val = 5000 * t.val + r.val) :
    (iblk1 V c 1 t : Vec Ideal S5000x128 .f32) (ix2 r k) = (V c main_v20 : S100000x128.Idx → EReal) (ix2 p k) := by
  obtain ⟨-, -, e10, e11, -⟩ := idx_facts t
  unfold iblk1
  rw [View.read_apply]
  show V c main_v20 _ = V c main_v20 _
  congr 1
  funext a
  apply Fin.ext
  match a with
  | ⟨0, _⟩ => show win1_1.index t (0 : Fin 2) * 5000 + 1 * r.val = p.val; rw [e10, hp]; omega
  | ⟨1, _⟩ => show win1_1.index t (1 : Fin 2) * 128 + 1 * k.val = k.val; rw [e11]; omega

/-- The weight windows' and the bias window's one block is the whole array. -/
theorem whole2 (c : Dev nD) (t : Fin cfg1.N) : (iblk1 V c 2 t : Vec Ideal S128x128 .f32) = (V c main_arg5 : S128x128.Idx → EReal) := by
  obtain ⟨-, -, -, -, e20, e21, -⟩ := idx_facts t
  funext y
  unfold iblk1
  rw [View.read_apply]
  show V c main_arg5 _ = V c main_arg5 _
  congr 1
  funext a
  apply Fin.ext
  match a with
  | ⟨0, _⟩ => show win1_2.index t (0 : Fin 2) * 128 + 1 * (y 0).val = (y 0).val; rw [e20]; omega
  | ⟨1, _⟩ => show win1_2.index t (1 : Fin 2) * 128 + 1 * (y 1).val = (y 1).val; rw [e21]; omega

theorem whole3 (c : Dev nD) (t : Fin cfg1.N) : (iblk1 V c 3 t : Vec Ideal S1x128 .f32) = (V c main_v28 : S1x128.Idx → EReal) := by
  obtain ⟨-, -, -, -, -, -, e30, e31, -⟩ := idx_facts t
  funext y
  unfold iblk1
  rw [View.read_apply]
  show V c main_v28 _ = V c main_v28 _
  congr 1
  funext a
  apply Fin.ext
  match a with
  | ⟨0, _⟩ => show win1_3.index t (0 : Fin 2) * 1 + 1 * (y 0).val = (y 0).val; rw [e30]; omega
  | ⟨1, _⟩ => show win1_3.index t (1 : Fin 2) * 128 + 1 * (y 1).val = (y 1).val; rw [e31]; omega

theorem whole4 (c : Dev nD) (t : Fin cfg1.N) : (iblk1 V c 4 t : Vec Ideal S128x128 .f32) = (V c main_arg7 : S128x128.Idx → EReal) := by
  obtain ⟨-, -, -, -, -, -, -, -, e40, e41, -⟩ := idx_facts t
  funext y
  unfold iblk1
  rw [View.read_apply]
  show V c main_arg7 _ = V c main_arg7 _
  congr 1
  funext a
  apply Fin.ext
  match a with
  | ⟨0, _⟩ => show win1_4.index t (0 : Fin 2) * 128 + 1 * (y 0).val = (y 0).val; rw [e40]; omega
  | ⟨1, _⟩ => show win1_4.index t (1 : Fin 2) * 128 + 1 * (y 1).val = (y 1).val; rw [e41]; omega

/-- What point t writes back is block t of G. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e50, e51, -⟩ := idx_facts t
  funext j
  refine point_eq (V c main_v27) (V c main_v20) (V c main_arg5) (V c main_arg7) (V c main_v28) _ _ _ _ _ t.val
    (rows0 V c t) (rows1 V c t) (whole2 V c t) (whole4 V c t) (whole3 V c t) j (((cfg1.win 5).blk t).view.emb j) ?_ ?_
  · show win1_5.index t (0 : Fin 2) * 5000 + 1 * (j 0).val = 5000 * t.val + (j 0).val; rw [e50]; omega
  · show win1_5.index t (1 : Fin 2) * 128 + 1 * (j 1).val = (j 1).val; rw [e51]; omega

/-- An index of the result is in point t's block iff each coordinate is in the block's range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Every block row of the result is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- The 20 blocks cover the result: node i₀ is in block i₀ / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the call is G of the arrays found at entry. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.KernelTerms.lean ====
/-
  The kernel program's host-side values as terms of the arguments, on the extended reals.

  From the edge list: the source and destination node numbers of the 1600000 edges (its two rows); the reciprocal degree
  1 / max(deg, 1), where deg counts the edges arriving at a node (ones scattered into zeros at the destination numbers).
  From node features z: the messages (row src[e] of z for every edge e, with the index normalisation and the out-of-range
  fill of a gather written as jnp.take), their sum per destination node, and that sum times the reciprocal degree spread over
  the 128 features. The bias as a [1, 128] row.
-/
import proofs.«152399_j53850299957912_1_alg».proof.KernelIdeal
import proofs.«152399_j53850299957912_1_alg».proof.Proof.Gen.KernelIdeal
import Idealize.ShloMosaic.PureOps.Ideal

noncomputable section

namespace Cert.KernelIdeal.Terms

open Cert.KernelIdeal Idealize.ShloMosaic
open Cert.KernelIdeal.Facts₀

/-- The edges' source node numbers: row 0 of the edge list. -/
def srcOf (ei : IVec S2x1600000 32) : IVec S1600000 32 :=
  fun i => shapeCast S1600000 (extractStridedSlice S1x1600000 ![0, 0] ei slices_S2x1600000_S1x1600000_0_0) shapeCasts_S1x1600000_S1600000 i

/-- The edges' destination node numbers: row 1 of the edge list. -/
def dstOf (ei : IVec S2x1600000 32) : IVec S1600000 32 :=
  fun i => shapeCast S1600000 (extractStridedSlice S1x1600000 ![1, 0] ei slices_S2x1600000_S1x1600000_1_0) shapeCasts_S1x1600000_S1600000 i

/-- The number of edges arriving at each node: ones scattered into zeros at the destination numbers. -/
def deg (d : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The degree, but at least 1. -/
def degMax (d : IVec S1600000 32) : FVec Ideal S100000 .f32 :=
  maximumf (deg d) (broadcastInDim S100000 ![] bcast_S_S100000 (constant (F := Ideal) S_ .f32 0x3F800000#32))

/-- The reciprocal of that. -/
def degInv (d : IVec S1600000 32) : FVec Ideal S100000 .f32 :=
  Host.divf (F := Ideal) (broadcastInDim S100000 ![] bcast_S_S100000 (constant (F := Ideal) S_ .f32 0x3F800000#32)) (degMax d)

/-- The node numbers a gather reads: a negative number wrapped once by the node count, as a [1600000, 1] column. -/
def takeIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Whether each wrapped number is a node number, 0 … 99999. -/
def takeOk (s : IVec S1600000 32) : IVec S1600000 1 :=
  Host.reduce IntOp.andi
    (andi (cmpi .sge (takeIdx s) (broadcastInDim S1600000x1 ![] bcast_S_S1600000x1 (constantI S_ 32 0#32)))
      (cmpi .sle (takeIdx s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The messages: for every edge the source node's feature row, the fill value where the number is no node's. -/
def take (z : FVec Ideal S100000x128 .f32) (s : IVec S1600000 32) : FVec Ideal S1600000x128 .f32 :=
  select (broadcastInDim S1600000x128 ![0] bcast_S1600000_S1600000x128_0 (takeOk s))
    (Host.gather gather_S100000x128_S1600000x1_S1600000x128_1_0_n_n_0_1_1128 z (takeIdx s))
    (broadcastInDim S1600000x128 ![] bcast_S_S1600000x128 (constant (F := Ideal) S_ .f32 0x7FC00000#32))

/-- The messages summed per destination node. -/
def segSum (u : FVec Ideal S1600000x128 .f32) (d : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d) u

/-- A per-node number spread over the 128 features. -/
def spread (v : FVec Ideal S100000 .f32) : FVec Ideal S100000x128 .f32 :=
  broadcastInDim S100000x128 ![0, 1] bcast_S100000x1_S100000x128_0_1 (broadcastInDim S100000x1 ![0] bcast_S100000_S100000x1_0 v)

/-- The mean aggregation as the kernel's program computes it: the summed messages times the reciprocal degree. -/
def agg (z : FVec Ideal S100000x128 .f32) (s d : IVec S1600000 32) : FVec Ideal S100000x128 .f32 :=
  mulf (segSum (take z s) d) (spread (degInv d))

/-- The bias as a [1, 128] row. -/
def biasRow (b : FVec Ideal S128 .f32) : FVec Ideal S1x128 .f32 :=
  fun i => shapeCast S1x128 b shapeCasts_S128_S1x128 i

end Cert.KernelIdeal.Terms

end
-- ==== Proof.KernelHostA.lean ====
/-
  The host operations of the kernel's program before its first pallas_call, read one stretch at a time over ANY buffer contents U:
  what each stretch writes into the buffers later stretches read, and that it leaves the other buffers it does not name alone.
  Stretch A: the edge list's two rows, the degree and its reciprocal. Stretch B: the gather of the messages. Stretch C: their
  sum per destination node times the reciprocal degree, and the bias as a row.
-/
import proofs.«152399_j53850299957912_1_alg».proof.Proof.Gen.KernelIdeal.Launch
import proofs.«152399_j53850299957912_1_alg».proof.Proof.KernelTerms
import Idealize.ShloMosaic.Lib.StableHlo.Run

noncomputable section

namespace Cert.KernelIdeal.HostA

open Cert.KernelIdeal Cert.KernelIdeal.Gen Cert.KernelIdeal.Terms Idealize.ShloMosaic Idealize.ShloMosaic.TcCoe Idealize.ShloMosaic.StableHlo

/-- A buffer's contents carried to a value's type and back are the contents. -/
theorem ofBuf_toBuf {Val : EltTy → Type} {T : BufTy} (x : TRef sig T) (v : T.Contents Val) : x.ofBuf (x.toBuf v) = v := by
  obtain ⟨r, h, h1, h2⟩ := x
  subst h
  rfl

/-- The TensorCore's buffer contents, on the extended reals. -/
abbrev Vl := Valuation τ sig (Elt Ideal)

/-! ## Stretch A -/

theorem A_v1 (U : Vl) : after (hostOps0 (F := Ideal)) U (Proc.devRef .tc main_v1) = srcOf (U (Proc.devRef .tc main_arg1)) := by
  after_results_simp
  rfl
theorem A_v3 (U : Vl) : after (hostOps0 (F := Ideal)) U (Proc.devRef .tc main_v3) = dstOf (U (Proc.devRef .tc main_arg1)) := by
  after_results_simp
  rfl
theorem A_v11 (U : Vl) : after (hostOps0 (F := Ideal)) U (Proc.devRef .tc main_v11) = degInv (dstOf (U (Proc.devRef .tc main_arg1))) := by
  after_results_simp
  rfl
theorem A_keep_arg0 (U : Vl) : after (hostOps0 (F := Ideal)) U (Proc.devRef .tc main_arg0) = U (Proc.devRef .tc main_arg0) := by after_results_simp
theorem A_keep_arg2 (U : Vl) : after (hostOps0 (F := Ideal)) U (Proc.devRef .tc main_arg2) = U (Proc.devRef .tc main_arg2) := by after_results_simp
theorem A_keep_arg3 (U : Vl) : after (hostOps0 (F := Ideal)) U (Proc.devRef .tc main_arg3) = U (Proc.devRef .tc main_arg3) := by after_results_simp
theorem A_keep_arg4 (U : Vl) : after (hostOps0 (F := Ideal)) U (Proc.devRef .tc main_arg4) = U (Proc.devRef .tc main_arg4) := by after_results_simp
theorem A_keep_arg5 (U : Vl) : after (hostOps0 (F := Ideal)) U (Proc.devRef .tc main_arg5) = U (Proc.devRef .tc main_arg5) := by after_results_simp
theorem A_keep_arg6 (U : Vl) : after (hostOps0 (F := Ideal)) U (Proc.devRef .tc main_arg6) = U (Proc.devRef .tc main_arg6) := by after_results_simp
theorem A_keep_arg7 (U : Vl) : after (hostOps0 (F := Ideal)) U (Proc.devRef .tc main_arg7) = U (Proc.devRef .tc main_arg7) := by after_results_simp

/-! ## Stretch B -/

theorem B_v12 (U : Vl) : after (hostOps0_1 (F := Ideal)) U (Proc.devRef .tc main_v12) = take (U (Proc.devRef .tc main_arg0)) (U (Proc.devRef .tc main_v1)) := by
  after_results_simp
  simp only [ofBuf_toBuf]
  have e1 : ((TRef.of main_v1 : TRef sig ⟨S1600000, .i32⟩).ofBuf (U (Proc.devRef .tc main_v1))) = U (Proc.devRef .tc main_v1) := rfl
  have e0 : ((TRef.of main_arg0 : TRef sig ⟨S100000x128, .f32⟩).ofBuf (U (Proc.devRef .tc main_arg0))) = U (Proc.devRef .tc main_arg0) := rfl
  have e2 : ∀ X : (⟨S1600000x128, .f32⟩ : BufTy).Contents (Elt Ideal), (TRef.of main_v12 : TRef sig ⟨S1600000x128, .f32⟩).toBuf X = X := fun _ => rfl
  rw [e2]
  simp only [e0, e1]
  rfl
theorem B_keep_v1 (U : Vl) : after (hostOps0_1 (F := Ideal)) U (Proc.devRef .tc main_v1) = U (Proc.devRef .tc main_v1) := by after_results_simp
theorem B_keep_v3 (U : Vl) : after (hostOps0_1 (F := Ideal)) U (Proc.devRef .tc main_v3) = U (Proc.devRef .tc main_v3) := by after_results_simp
theorem B_keep_v11 (U : Vl) : after (hostOps0_1 (F := Ideal)) U (Proc.devRef .tc main_v11) = U (Proc.devRef .tc main_v11) := by after_results_simp
theorem B_keep_arg0 (U : Vl) : after (hostOps0_1 (F := Ideal)) U (Proc.devRef .tc main_arg0) = U (Proc.devRef .tc main_arg0) := by after_results_simp
theorem B_keep_arg2 (U : Vl) : after (hostOps0_1 (F := Ideal)) U (Proc.devRef .tc main_arg2) = U (Proc.devRef .tc main_arg2) := by after_results_simp
theorem B_keep_arg3 (U : Vl) : after (hostOps0_1 (F := Ideal)) U (Proc.devRef .tc main_arg3) = U (Proc.devRef .tc main_arg3) := by after_results_simp
theorem B_keep_arg4 (U : Vl) : after (hostOps0_1 (F := Ideal)) U (Proc.devRef .tc main_arg4) = U (Proc.devRef .tc main_arg4) := by after_results_simp
theorem B_keep_arg5 (U : Vl) : after (hostOps0_1 (F := Ideal)) U (Proc.devRef .tc main_arg5) = U (Proc.devRef .tc main_arg5) := by after_results_simp
theorem B_keep_arg6 (U : Vl) : after (hostOps0_1 (F := Ideal)) U (Proc.devRef .tc main_arg6) = U (Proc.devRef .tc main_arg6) := by after_results_simp
theorem B_keep_arg7 (U : Vl) : after (hostOps0_1 (F := Ideal)) U (Proc.devRef .tc main_arg7) = U (Proc.devRef .tc main_arg7) := by after_results_simp

/-! ## Stretch C -/

theorem C_v18 (U : Vl) : after (hostOps0_2 (F := Ideal)) U (Proc.devRef .tc main_v18)
    = mulf (segSum (U (Proc.devRef .tc main_v12)) (U (Proc.devRef .tc main_v3))) (spread (U (Proc.devRef .tc main_v11))) := by
  after_results_simp
  rfl
theorem C_v19 (U : Vl) : after (hostOps0_2 (F := Ideal)) U (Proc.devRef .tc main_v19) = biasRow (U (Proc.devRef .tc main_arg3)) := by
  after_results_simp
  rfl
theorem C_keep_v1 (U : Vl) : after (hostOps0_2 (F := Ideal)) U (Proc.devRef .tc main_v1) = U (Proc.devRef .tc main_v1) := by after_results_simp
theorem C_keep_v3 (U : Vl) : after (hostOps0_2 (F := Ideal)) U (Proc.devRef .tc main_v3) = U (Proc.devRef .tc main_v3) := by after_results_simp
theorem C_keep_v11 (U : Vl) : after (hostOps0_2 (F := Ideal)) U (Proc.devRef .tc main_v11) = U (Proc.devRef .tc main_v11) := by after_results_simp
theorem C_keep_arg0 (U : Vl) : after (hostOps0_2 (F := Ideal)) U (Proc.devRef .tc main_arg0) = U (Proc.devRef .tc main_arg0) := by after_results_simp
theorem C_keep_arg2 (U : Vl) : after (hostOps0_2 (F := Ideal)) U (Proc.devRef .tc main_arg2) = U (Proc.devRef .tc main_arg2) := by after_results_simp
theorem C_keep_arg4 (U : Vl) : after (hostOps0_2 (F := Ideal)) U (Proc.devRef .tc main_arg4) = U (Proc.devRef .tc main_arg4) := by after_results_simp
theorem C_keep_arg5 (U : Vl) : after (hostOps0_2 (F := Ideal)) U (Proc.devRef .tc main_arg5) = U (Proc.devRef .tc main_arg5) := by after_results_simp
theorem C_keep_arg6 (U : Vl) : after (hostOps0_2 (F := Ideal)) U (Proc.devRef .tc main_arg6) = U (Proc.devRef .tc main_arg6) := by after_results_simp
theorem C_keep_arg7 (U : Vl) : after (hostOps0_2 (F := Ideal)) U (Proc.devRef .tc main_arg7) = U (Proc.devRef .tc main_arg7) := by after_results_simp

end Cert.KernelIdeal.HostA

end
-- ==== Proof.KernelHostB.lean ====
/-
  The host operations of the kernel's program between its two pallas_calls, read one stretch at a time over ANY buffer
  contents U. Stretch D: the gather of the second layer's messages from the first call's result. Stretch E: their sum per
  destination node times the reciprocal degree, and the second bias as a row.
-/
import proofs.«152399_j53850299957912_1_alg».proof.Proof.Gen.KernelIdeal.Launch
import proofs.«152399_j53850299957912_1_alg».proof.Proof.KernelTerms
import Idealize.ShloMosaic.Lib.StableHlo.Run

noncomputable section

namespace Cert.KernelIdeal.HostB

open Cert.KernelIdeal Cert.KernelIdeal.Gen Cert.KernelIdeal.Terms Idealize.ShloMosaic Idealize.ShloMosaic.TcCoe Idealize.ShloMosaic.StableHlo

/-- A buffer's contents carried to a value's type and back are the contents. -/
theorem ofBuf_toBuf {Val : EltTy → Type} {T : BufTy} (x : TRef sig T) (v : T.Contents Val) : x.ofBuf (x.toBuf v) = v := by
  obtain ⟨r, h, h1, h2⟩ := x
  subst h
  rfl

/-- The TensorCore's buffer contents, on the extended reals. -/
abbrev Vl := Valuation τ sig (Elt Ideal)

/-! ## Stretch D -/

theorem D_v21 (U : Vl) : after (hostOps1 (F := Ideal)) U (Proc.devRef .tc main_v21) = take (U (Proc.devRef .tc main_v20)) (U (Proc.devRef .tc main_v1)) := by
  after_results_simp
  simp only [ofBuf_toBuf]
  have e1 : ((TRef.of main_v1 : TRef sig ⟨S1600000, .i32⟩).ofBuf (U (Proc.devRef .tc main_v1))) = U (Proc.devRef .tc main_v1) := rfl
  have e0 : ((TRef.of main_v20 : TRef sig ⟨S100000x128, .f32⟩).ofBuf (U (Proc.devRef .tc main_v20))) = U (Proc.devRef .tc main_v20) := rfl
  have e2 : ∀ X : (⟨S1600000x128, .f32⟩ : BufTy).Contents (Elt Ideal), (TRef.of main_v21 : TRef sig ⟨S1600000x128, .f32⟩).toBuf X = X := fun _ => rfl
  rw [e2]
  simp only [e0, e1]
  rfl
theorem D_keep_v20 (U : Vl) : after (hostOps1 (F := Ideal)) U (Proc.devRef .tc main_v20) = U (Proc.devRef .tc main_v20) := by after_results_simp
theorem D_keep_v3 (U : Vl) : after (hostOps1 (F := Ideal)) U (Proc.devRef .tc main_v3) = U (Proc.devRef .tc main_v3) := by after_results_simp
theorem D_keep_v11 (U : Vl) : after (hostOps1 (F := Ideal)) U (Proc.devRef .tc main_v11) = U (Proc.devRef .tc main_v11) := by after_results_simp
theorem D_keep_arg5 (U : Vl) : after (hostOps1 (F := Ideal)) U (Proc.devRef .tc main_arg5) = U (Proc.devRef .tc main_arg5) := by after_results_simp
theorem D_keep_arg6 (U : Vl) : after (hostOps1 (F := Ideal)) U (Proc.devRef .tc main_arg6) = U (Proc.devRef .tc main_arg6) := by after_results_simp
theorem D_keep_arg7 (U : Vl) : after (hostOps1 (F := Ideal)) U (Proc.devRef .tc main_arg7) = U (Proc.devRef .tc main_arg7) := by after_results_simp

/-! ## Stretch E -/

theorem E_v27 (U : Vl) : after (hostOps1_1 (F := Ideal)) U (Proc.devRef .tc main_v27)
    = mulf (segSum (U (Proc.devRef .tc main_v21)) (U (Proc.devRef .tc main_v3))) (spread (U (Proc.devRef .tc main_v11))) := by
  after_results_simp
  rfl
theorem E_v28 (U : Vl) : after (hostOps1_1 (F := Ideal)) U (Proc.devRef .tc main_v28) = biasRow (U (Proc.devRef .tc main_arg6)) := by
  after_results_simp
  rfl
theorem E_keep_v20 (U : Vl) : after (hostOps1_1 (F := Ideal)) U (Proc.devRef .tc main_v20) = U (Proc.devRef .tc main_v20) := by after_results_simp
theorem E_keep_arg5 (U : Vl) : after (hostOps1_1 (F := Ideal)) U (Proc.devRef .tc main_arg5) = U (Proc.devRef .tc main_arg5) := by after_results_simp
theorem E_keep_arg7 (U : Vl) : after (hostOps1_1 (F := Ideal)) U (Proc.devRef .tc main_arg7) = U (Proc.devRef .tc main_arg7) := by after_results_simp

end Cert.KernelIdeal.HostB

end
-- ==== Proof.KernelValue.lean ====
/-
  The kernel program's run, read: the buffer contents at each boundary between its host stretches and its two pallas_calls,
  and the result array.

  With x the node features, (src, dst) the two rows of the edge list and agg(z) the mean aggregation as this program computes
  it (summed messages times the reciprocal degree), the first call's result is H = max(lin(agg x, x, W1l, b1, W1r), 0) and the
  second's is lin(agg H, H, W2l, b2, W2r): each call's result is one function of the arrays it finds (the region modules), and
  what it finds is what the host stretches before it computed from the launch contents (the host-stretch modules).
-/
import proofs.«152399_j53850299957912_1_alg».proof.Proof.KernelFrameNamed
import proofs.«152399_j53850299957912_1_alg».proof.Proof.KernelRegion0
import proofs.«152399_j53850299957912_1_alg».proof.Proof.KernelRegion1
import proofs.«152399_j53850299957912_1_alg».proof.Proof.KernelHostA
import proofs.«152399_j53850299957912_1_alg».proof.Proof.KernelHostB
import Idealize.ShloMosaic.Lib.ValueLayout

set_option maxRecDepth 16384

noncomputable section

namespace Cert.KernelIdeal.KValue

open Cert.KernelIdeal Cert.KernelIdeal.Gen Cert.KernelIdeal.Terms Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The bias row read back as the bias. -/
theorem biasRow_read (b : FVec Ideal S128 .f32) : (fun j : Cert.Sage.SB.Idx => biasRow b (ix2 (0 : Fin 1) (j 0))) = b := by
  funext j
  obtain ⟨q, rfl⟩ : ∃ q : Fin 128, j = ix1 q := ⟨j 0, eq_ix1 j⟩
  exact shapeCast_a_1a_apply b _ 0 q

/-- The first layer's output. -/
def H (c : Dev nD) : S100000x128.Idx → EReal :=
  Cert.Sage.linRelu (agg (m ((c : Thread nD τ).loc main_arg0)) (srcOf (m ((c : Thread nD τ).loc main_arg1))) (dstOf (m ((c : Thread nD τ).loc main_arg1)))) (m ((c : Thread nD τ).loc main_arg0)) (m ((c : Thread nD τ).loc main_arg2)) (m ((c : Thread nD τ).loc main_arg3)) (m ((c : Thread nD τ).loc main_arg4))

/-- The second layer's output: the program's result. -/
def Out (c : Dev nD) : S100000x128.Idx → EReal :=
  Cert.Sage.lin (agg (H m c) (srcOf (m ((c : Thread nD τ).loc main_arg1))) (dstOf (m ((c : Thread nD τ).loc main_arg1)))) (H m c) (m ((c : Thread nD τ).loc main_arg5)) (m ((c : Thread nD τ).loc main_arg6)) (m ((c : Thread nD τ).loc main_arg7))

/-! ## At launch -/
theorem W0_arg0 (c : Dev nD) : W0 m ρ c (Proc.devRef .tc main_arg0) = (m ((c : Thread nD τ).loc main_arg0)) := rfl
theorem W0_arg1 (c : Dev nD) : W0 m ρ c (Proc.devRef .tc main_arg1) = (m ((c : Thread nD τ).loc main_arg1)) := rfl
theorem W0_arg2 (c : Dev nD) : W0 m ρ c (Proc.devRef .tc main_arg2) = (m ((c : Thread nD τ).loc main_arg2)) := rfl
theorem W0_arg3 (c : Dev nD) : W0 m ρ c (Proc.devRef .tc main_arg3) = (m ((c : Thread nD τ).loc main_arg3)) := rfl
theorem W0_arg4 (c : Dev nD) : W0 m ρ c (Proc.devRef .tc main_arg4) = (m ((c : Thread nD τ).loc main_arg4)) := rfl
theorem W0_arg5 (c : Dev nD) : W0 m ρ c (Proc.devRef .tc main_arg5) = (m ((c : Thread nD τ).loc main_arg5)) := rfl
theorem W0_arg6 (c : Dev nD) : W0 m ρ c (Proc.devRef .tc main_arg6) = (m ((c : Thread nD τ).loc main_arg6)) := rfl
theorem W0_arg7 (c : Dev nD) : W0 m ρ c (Proc.devRef .tc main_arg7) = (m ((c : Thread nD τ).loc main_arg7)) := rfl

/-! ## After stretch A -/
theorem W1_v1 (c : Dev nD) : W1 m ρ c (Proc.devRef .tc main_v1) = srcOf (m ((c : Thread nD τ).loc main_arg1)) := HostA.A_v1 (W0 m ρ c)
theorem W1_v3 (c : Dev nD) : W1 m ρ c (Proc.devRef .tc main_v3) = dstOf (m ((c : Thread nD τ).loc main_arg1)) := HostA.A_v3 (W0 m ρ c)
theorem W1_v11 (c : Dev nD) : W1 m ρ c (Proc.devRef .tc main_v11) = degInv (dstOf (m ((c : Thread nD τ).loc main_arg1))) := HostA.A_v11 (W0 m ρ c)
theorem W1_arg0 (c : Dev nD) : W1 m ρ c (Proc.devRef .tc main_arg0) = (m ((c : Thread nD τ).loc main_arg0)) := HostA.A_keep_arg0 (W0 m ρ c)
theorem W1_arg2 (c : Dev nD) : W1 m ρ c (Proc.devRef .tc main_arg2) = (m ((c : Thread nD τ).loc main_arg2)) := HostA.A_keep_arg2 (W0 m ρ c)
theorem W1_arg3 (c : Dev nD) : W1 m ρ c (Proc.devRef .tc main_arg3) = (m ((c : Thread nD τ).loc main_arg3)) := HostA.A_keep_arg3 (W0 m ρ c)
theorem W1_arg4 (c : Dev nD) : W1 m ρ c (Proc.devRef .tc main_arg4) = (m ((c : Thread nD τ).loc main_arg4)) := HostA.A_keep_arg4 (W0 m ρ c)
theorem W1_arg5 (c : Dev nD) : W1 m ρ c (Proc.devRef .tc main_arg5) = (m ((c : Thread nD τ).loc main_arg5)) := HostA.A_keep_arg5 (W0 m ρ c)
theorem W1_arg6 (c : Dev nD) : W1 m ρ c (Proc.devRef .tc main_arg6) = (m ((c : Thread nD τ).loc main_arg6)) := HostA.A_keep_arg6 (W0 m ρ c)
theorem W1_arg7 (c : Dev nD) : W1 m ρ c (Proc.devRef .tc main_arg7) = (m ((c : Thread nD τ).loc main_arg7)) := HostA.A_keep_arg7 (W0 m ρ c)

/-! ## After stretch B -/
theorem W2_v12 (c : Dev nD) : W2 m ρ c (Proc.devRef .tc main_v12) = take (m ((c : Thread nD τ).loc main_arg0)) (srcOf (m ((c : Thread nD τ).loc main_arg1))) :=
  (HostA.B_v12 (W1 m ρ c)).trans (by rw [W1_arg0, W1_v1])
theorem W2_v1 (c : Dev nD) : W2 m ρ c (Proc.devRef .tc main_v1) = srcOf (m ((c : Thread nD τ).loc main_arg1)) :=
  (HostA.B_keep_v1 (W1 m ρ c)).trans (W1_v1 m ρ c)
theorem W2_v3 (c : Dev nD) : W2 m ρ c (Proc.devRef .tc main_v3) = dstOf (m ((c : Thread nD τ).loc main_arg1)) :=
  (HostA.B_keep_v3 (W1 m ρ c)).trans (W1_v3 m ρ c)
theorem W2_v11 (c : Dev nD) : W2 m ρ c (Proc.devRef .tc main_v11) = degInv (dstOf (m ((c : Thread nD τ).loc main_arg1))) :=
  (HostA.B_keep_v11 (W1 m ρ c)).trans (W1_v11 m ρ c)
theorem W2_arg0 (c : Dev nD) : W2 m ρ c (Proc.devRef .tc main_arg0) = (m ((c : Thread nD τ).loc main_arg0)) :=
  (HostA.B_keep_arg0 (W1 m ρ c)).trans (W1_arg0 m ρ c)
theorem W2_arg2 (c : Dev nD) : W2 m ρ c (Proc.devRef .tc main_arg2) = (m ((c : Thread nD τ).loc main_arg2)) :=
  (HostA.B_keep_arg2 (W1 m ρ c)).trans (W1_arg2 m ρ c)
theorem W2_arg3 (c : Dev nD) : W2 m ρ c (Proc.devRef .tc main_arg3) = (m ((c : Thread nD τ).loc main_arg3)) :=
  (HostA.B_keep_arg3 (W1 m ρ c)).trans (W1_arg3 m ρ c)
theorem W2_arg4 (c : Dev nD) : W2 m ρ c (Proc.devRef .tc main_arg4) = (m ((c : Thread nD τ).loc main_arg4)) :=
  (HostA.B_keep_arg4 (W1 m ρ c)).trans (W1_arg4 m ρ c)
theorem W2_arg5 (c : Dev nD) : W2 m ρ c (Proc.devRef .tc main_arg5) = (m ((c : Thread nD τ).loc main_arg5)) :=
  (HostA.B_keep_arg5 (W1 m ρ c)).trans (W1_arg5 m ρ c)
theorem W2_arg6 (c : Dev nD) : W2 m ρ c (Proc.devRef .tc main_arg6) = (m ((c : Thread nD τ).loc main_arg6)) :=
  (HostA.B_keep_arg6 (W1 m ρ c)).trans (W1_arg6 m ρ c)
theorem W2_arg7 (c : Dev nD) : W2 m ρ c (Proc.devRef .tc main_arg7) = (m ((c : Thread nD τ).loc main_arg7)) :=
  (HostA.B_keep_arg7 (W1 m ρ c)).trans (W1_arg7 m ρ c)

/-! ## After stretch C: what the first call finds -/
theorem W3_v18 (c : Dev nD) : W3 m ρ c (Proc.devRef .tc main_v18) = agg (m ((c : Thread nD τ).loc main_arg0)) (srcOf (m ((c : Thread nD τ).loc main_arg1))) (dstOf (m ((c : Thread nD τ).loc main_arg1))) :=
  (HostA.C_v18 (W2 m ρ c)).trans (by rw [W2_v12, W2_v3, W2_v11]; rfl)
theorem W3_v19 (c : Dev nD) : W3 m ρ c (Proc.devRef .tc main_v19) = biasRow (m ((c : Thread nD τ).loc main_arg3)) :=
  (HostA.C_v19 (W2 m ρ c)).trans (by rw [W2_arg3])
theorem W3_v1 (c : Dev nD) : W3 m ρ c (Proc.devRef .tc main_v1) = srcOf (m ((c : Thread nD τ).loc main_arg1)) :=
  (HostA.C_keep_v1 (W2 m ρ c)).trans (W2_v1 m ρ c)
theorem W3_v3 (c : Dev nD) : W3 m ρ c (Proc.devRef .tc main_v3) = dstOf (m ((c : Thread nD τ).loc main_arg1)) :=
  (HostA.C_keep_v3 (W2 m ρ c)).trans (W2_v3 m ρ c)
theorem W3_v11 (c : Dev nD) : W3 m ρ c (Proc.devRef .tc main_v11) = degInv (dstOf (m ((c : Thread nD τ).loc main_arg1))) :=
  (HostA.C_keep_v11 (W2 m ρ c)).trans (W2_v11 m ρ c)
theorem W3_arg0 (c : Dev nD) : W3 m ρ c (Proc.devRef .tc main_arg0) = (m ((c : Thread nD τ).loc main_arg0)) :=
  (HostA.C_keep_arg0 (W2 m ρ c)).trans (W2_arg0 m ρ c)
theorem W3_arg2 (c : Dev nD) : W3 m ρ c (Proc.devRef .tc main_arg2) = (m ((c : Thread nD τ).loc main_arg2)) :=
  (HostA.C_keep_arg2 (W2 m ρ c)).trans (W2_arg2 m ρ c)
theorem W3_arg4 (c : Dev nD) : W3 m ρ c (Proc.devRef .tc main_arg4) = (m ((c : Thread nD τ).loc main_arg4)) :=
  (HostA.C_keep_arg4 (W2 m ρ c)).trans (W2_arg4 m ρ c)
theorem W3_arg5 (c : Dev nD) : W3 m ρ c (Proc.devRef .tc main_arg5) = (m ((c : Thread nD τ).loc main_arg5)) :=
  (HostA.C_keep_arg5 (W2 m ρ c)).trans (W2_arg5 m ρ c)
theorem W3_arg6 (c : Dev nD) : W3 m ρ c (Proc.devRef .tc main_arg6) = (m ((c : Thread nD τ).loc main_arg6)) :=
  (HostA.C_keep_arg6 (W2 m ρ c)).trans (W2_arg6 m ρ c)
theorem W3_arg7 (c : Dev nD) : W3 m ρ c (Proc.devRef .tc main_arg7) = (m ((c : Thread nD τ).loc main_arg7)) :=
  (HostA.C_keep_arg7 (W2 m ρ c)).trans (W2_arg7 m ρ c)

/-! ## After the first call -/
theorem W4_v20 (c : Dev nD) : W4 m ρ c (Proc.devRef .tc main_v20) = H m c := by
  refine (W4_arr m ρ c 5).trans ((Region0.final (V3 m ρ) c).trans ?_)
  unfold Region0.G Region0.bias H
  rw [show V3 m ρ c main_v18 = _ from W3_v18 m ρ c, show V3 m ρ c main_arg0 = _ from W3_arg0 m ρ c,
    show V3 m ρ c main_arg2 = _ from W3_arg2 m ρ c, show V3 m ρ c main_v19 = _ from W3_v19 m ρ c,
    show V3 m ρ c main_arg4 = _ from W3_arg4 m ρ c, biasRow_read]
theorem W4_v1 (c : Dev nD) : W4 m ρ c (Proc.devRef .tc main_v1) = srcOf (m ((c : Thread nD τ).loc main_arg1)) :=
  (W4_of_ne m ρ c main_v1 (by decide)).trans (W3_v1 m ρ c)
theorem W4_v3 (c : Dev nD) : W4 m ρ c (Proc.devRef .tc main_v3) = dstOf (m ((c : Thread nD τ).loc main_arg1)) :=
  (W4_of_ne m ρ c main_v3 (by decide)).trans (W3_v3 m ρ c)
theorem W4_v11 (c : Dev nD) : W4 m ρ c (Proc.devRef .tc main_v11) = degInv (dstOf (m ((c : Thread nD τ).loc main_arg1))) :=
  (W4_of_ne m ρ c main_v11 (by decide)).trans (W3_v11 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)

/-! ## After stretch D -/
theorem W5_v21 (c : Dev nD) : W5 m ρ c (Proc.devRef .tc main_v21) = take (H m c) (srcOf (m ((c : Thread nD τ).loc main_arg1))) :=
  (HostB.D_v21 (W4 m ρ c)).trans (by rw [W4_v20, W4_v1])
theorem W5_v20 (c : Dev nD) : W5 m ρ c (Proc.devRef .tc main_v20) = H m c :=
  (HostB.D_keep_v20 (W4 m ρ c)).trans (W4_v20 m ρ c)
theorem W5_v3 (c : Dev nD) : W5 m ρ c (Proc.devRef .tc main_v3) = dstOf (m ((c : Thread nD τ).loc main_arg1)) :=
  (HostB.D_keep_v3 (W4 m ρ c)).trans (W4_v3 m ρ c)
theorem W5_v11 (c : Dev nD) : W5 m ρ c (Proc.devRef .tc main_v11) = degInv (dstOf (m ((c : Thread nD τ).loc main_arg1))) :=
  (HostB.D_keep_v11 (W4 m ρ c)).trans (W4_v11 m ρ c)
theorem W5_arg5 (c : Dev nD) : W5 m ρ c (Proc.devRef .tc main_arg5) = (m ((c : Thread nD τ).loc main_arg5)) :=
  (HostB.D_keep_arg5 (W4 m ρ c)).trans (W4_arg5 m ρ c)
theorem W5_arg6 (c : Dev nD) : W5 m ρ c (Proc.devRef .tc main_arg6) = (m ((c : Thread nD τ).loc main_arg6)) :=
  (HostB.D_keep_arg6 (W4 m ρ c)).trans (W4_arg6 m ρ c)
theorem W5_arg7 (c : Dev nD) : W5 m ρ c (Proc.devRef .tc main_arg7) = (m ((c : Thread nD τ).loc main_arg7)) :=
  (HostB.D_keep_arg7 (W4 m ρ c)).trans (W4_arg7 m ρ c)

/-! ## After stretch E: what the second call finds -/
theorem W6_v27 (c : Dev nD) : W6 m ρ c (Proc.devRef .tc main_v27) = agg (H m c) (srcOf (m ((c : Thread nD τ).loc main_arg1))) (dstOf (m ((c : Thread nD τ).loc main_arg1))) :=
  (HostB.E_v27 (W5 m ρ c)).trans (by rw [W5_v21, W5_v3, W5_v11]; rfl)
theorem W6_v28 (c : Dev nD) : W6 m ρ c (Proc.devRef .tc main_v28) = biasRow (m ((c : Thread nD τ).loc main_arg6)) :=
  (HostB.E_v28 (W5 m ρ c)).trans (by rw [W5_arg6])
theorem W6_v20 (c : Dev nD) : W6 m ρ c (Proc.devRef .tc main_v20) = H m c :=
  (HostB.E_keep_v20 (W5 m ρ c)).trans (W5_v20 m ρ c)
theorem W6_arg5 (c : Dev nD) : W6 m ρ c (Proc.devRef .tc main_arg5) = (m ((c : Thread nD τ).loc main_arg5)) :=
  (HostB.E_keep_arg5 (W5 m ρ c)).trans (W5_arg5 m ρ c)
theorem W6_arg7 (c : Dev nD) : W6 m ρ c (Proc.devRef .tc main_arg7) = (m ((c : Thread nD τ).loc main_arg7)) :=
  (HostB.E_keep_arg7 (W5 m ρ c)).trans (W5_arg7 m ρ c)

/-! ## The result -/
theorem W7_v29 (c : Dev nD) : W7 m ρ c (Proc.devRef .tc main_v29) = Out m c := by
  refine (W7_arr m ρ c 5).trans ((Region1.final (V6 m ρ) c).trans ?_)
  unfold Region1.G Region1.bias Out
  rw [show V6 m ρ c main_v27 = _ from W6_v27 m ρ c, show V6 m ρ c main_v20 = _ from W6_v20 m ρ c,
    show V6 m ρ c main_arg5 = _ from W6_arg5 m ρ c, show V6 m ρ c main_v28 = _ from W6_v28 m ρ c,
    show V6 m ρ c main_arg7 = _ from W6_arg7 m ρ c, biasRow_read]

/-- The kernel program's run on the extended reals: every weakly fair execution terminates, the result array at the two
    layers' value of the launch contents, the arguments unchanged. -/
theorem run : θ_run (defs (F := Ideal)) (onTc (τ := τ) (main (F := Ideal))) ⟨m, fun _ => 0, ρ⟩ (fun r => ∀ c : Dev nD,
      r.2.mem ((c.tc : Thread nD τ).loc main_v29) = Out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (W7_v29 m ρ c), (h c).2⟩) (GenP.frame_named (F := Ideal) m ρ)

end Cert.KernelIdeal.KValue

end
-- ==== Proof.LibAfterSplit.lean ====
/-
  A line of host operations run in two parts.

  The buffer contents after a list of operations are the contents after its last operations run from
  the contents after its first n: the fold over the list is the fold over the rest started from the
  fold over the first part. It lets a long line be read in stages, each from ANY contents.
-/
import Idealize.ShloMosaic.Lib.StableHlo.Run

noncomputable section

namespace Idealize.ShloMosaic.StableHlo

variable {τ : Topo} {sig : RefSig} {Val : EltTy → Type}

/-- The contents after the whole line are the contents after the operations from the n-th on, run from the
    contents after the first n. -/
theorem after_drop_after_take :
    ∀ (n : Nat) (l : List (HloOp τ sig Val)) (V : Valuation τ sig Val), after (l.drop n) (after (l.take n) V) = after l V
  | 0, _, _ => rfl
  | _ + 1, [], _ => rfl
  | n + 1, op :: l, V => after_drop_after_take n l (op.result V)

end Idealize.ShloMosaic.StableHlo

end
-- ==== Proof.RefRun.lean ====
/-
  The reference program's @main as one straight line of host operations.

  @main calls three outlined functions: the row gather (which itself calls the three-way select), the
  rectifier, and the row gather a second time. A call executes the callee's body on the operands, so the
  straight line lists each callee's operations at its call site, over the buffers that call names. The
  line is cut into six stretches in program order: the two index rows; the first gather; the first layer's
  aggregation and dense part; the rectifier; the second gather; the second layer's aggregation and dense
  part. Running the line from any launch memory leaves every buffer at the fold of the operations' results.
-/
import proofs.«152399_j53850299957912_1_alg».proof.Proof.Gen.ReferenceIdeal
import proofs.«152399_j53850299957912_1_alg».proof.Proof.LibAfterSplit
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table, each sliced out and flattened: sources, then destinations. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The first row gather: the node features at the source of every edge (negative indices wrapped, out-of-range rows marked). -/
abbrev opsT1 : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (.of main_v1 : StableHlo.TRef sig ⟨S1600000, .i32⟩) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_v1 : StableHlo.TRef sig ⟨S1600000, .i32⟩) main_call0.v2 main_call0.v3 addi,
    StableHlo.TRef.ternary main_call0.v1 main_call0.v3 (.of main_v1 : StableHlo.TRef sig ⟨S1600000, .i32⟩) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0 : StableHlo.TRef sig ⟨S100000x128, .f32⟩) main_call0.v5 main_call0.v13 (fun x i => Host.gather gather_S100000x128_S1600000x1_S1600000x128_1_0_n_n_0_1_1128 x i),
    StableHlo.TRef.unary main_call0.v12 main_call0.v14 (broadcastInDim S1600000x128 ![0] bcast_S1600000_S1600000x128_0),
    StableHlo.TRef.nullary main_call0.cst (constant S_ .f32 0x7FC00000#32),
    StableHlo.TRef.unary main_call0.cst main_call0.v15 (broadcastInDim S1600000x128 ![] bcast_S_S1600000x128),
    StableHlo.TRef.ternary main_call0.v14 main_call0.v13 main_call0.v15 main_call0.v16 select ]

/-- The first layer after the gather: rows summed per destination, the in-degree count clamped below by one, the mean, and the dense part. -/
abbrev opsB : List (HloOp τ sig (Elt F)) :=
  [ StableHlo.nullary main_cst (constant S_ .f32 0x00000000#32),
    StableHlo.unary main_cst main_v5 (broadcastInDim S100000x128 ![] bcast_S_S100000x128 : (⟨S_, .f32⟩ : BufTy).Contents (Elt F) → (⟨S100000x128, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v8 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v9 (broadcastInDim S100000 ![] bcast_S_S100000 : (⟨S_, .f32⟩ : BufTy).Contents (Elt F) → (⟨S100000, .f32⟩ : BufTy).Contents (Elt F)),
    StableHlo.unary main_v3 main_v10 (broadcastInDim S1600000x1 ![0] bcast_S1600000_S1600000x1_0 : (⟨S1600000, .i32⟩ : BufTy).Contents (Elt F) → (⟨S1600000x1, .i32⟩ : BufTy).Contents (Elt F)),
    StableHlo.ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v12 (broadcastInDim S100000 ![] bcast_S_S100000 : (⟨S_, .f32⟩ : BufTy).Contents (Elt F) → (⟨S100000, .f32⟩ : BufTy).Contents (Elt F)),
    StableHlo.binary main_v11 main_v12 main_v13 (maximumf : (⟨S100000, .f32⟩ : BufTy).Contents (Elt F) → (⟨S100000, .f32⟩ : BufTy).Contents (Elt F) → (⟨S100000, .f32⟩ : BufTy).Contents (Elt F)),
    StableHlo.unary main_v13 main_v14 (broadcastInDim S100000x1 ![0] bcast_S100000_S100000x1_0 : (⟨S100000, .f32⟩ : BufTy).Contents (Elt F) → (⟨S100000x1, .f32⟩ : BufTy).Contents (Elt F)),
    StableHlo.unary main_v14 main_v15 (broadcastInDim S100000x128 ![0, 1] bcast_S100000x1_S100000x128_0_1 : (⟨S100000x1, .f32⟩ : BufTy).Contents (Elt F) → (⟨S100000x128, .f32⟩ : BufTy).Contents (Elt F)),
    StableHlo.binary main_v7 main_v15 main_v16 (Host.divf : (⟨S100000x128, .f32⟩ : BufTy).Contents (Elt F) → (⟨S100000x128, .f32⟩ : BufTy).Contents (Elt F) → (⟨S100000x128, .f32⟩ : BufTy).Contents (Elt F)),
    StableHlo.unary main_arg2 main_v17 ((transpose S128x128 [1, 0] · transposes_S128x128_S128x128_1_0) : (⟨S128x128, .f32⟩ : BufTy).Contents (Elt F) → (⟨S128x128, .f32⟩ : BufTy).Contents (Elt F)),
    StableHlo.binary main_v16 main_v17 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.unary main_arg4 main_v22 ((transpose S128x128 [1, 0] · transposes_S128x128_S128x128_1_0) : (⟨S128x128, .f32⟩ : BufTy).Contents (Elt F) → (⟨S128x128, .f32⟩ : BufTy).Contents (Elt F)),
    StableHlo.binary main_arg0 main_v22 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)) ]

/-- The rectifier: the larger of the first layer's output and zero. -/
abbrev opsR : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v24 : StableHlo.TRef sig ⟨S100000x128, .f32⟩) main_call1.v0 main_call1.v1 maximumf ]

/-- The second row gather: the hidden features at the source of every edge. -/
abbrev opsT2 : List (HloOp τ sig (Elt F)) :=
  [ StableHlo.TRef.nullary main_call2.c (constantI S_ 32 0#32),
    StableHlo.TRef.unary main_call2.c main_call2.v0 (broadcastInDim S1600000 ![] bcast_S_S1600000),
    StableHlo.TRef.binary (.of main_v1 : StableHlo.TRef sig ⟨S1600000, .i32⟩) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_v1 : StableHlo.TRef sig ⟨S1600000, .i32⟩) main_call2.v2 main_call2.v3 addi,
    StableHlo.TRef.ternary main_call2.v1 main_call2.v3 (.of main_v1 : StableHlo.TRef sig ⟨S1600000, .i32⟩) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v25 : StableHlo.TRef sig ⟨S100000x128, .f32⟩) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select ]

/-- The second layer after the gather: per-destination sums, clamped counts, the mean, and the dense part. -/
abbrev opsC : List (HloOp τ sig (Elt F)) :=
  [ StableHlo.nullary main_cst_3 (constant S_ .f32 0x00000000#32),
    StableHlo.unary main_cst_3 main_v27 (broadcastInDim S100000x128 ![] bcast_S_S100000x128 : (⟨S_, .f32⟩ : BufTy).Contents (Elt F) → (⟨S100000x128, .f32⟩ : BufTy).Contents (Elt F)),
    StableHlo.unary main_v3 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v30 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v31 (broadcastInDim S100000 ![] bcast_S_S100000 : (⟨S_, .f32⟩ : BufTy).Contents (Elt F) → (⟨S100000, .f32⟩ : BufTy).Contents (Elt F)),
    StableHlo.unary main_v3 main_v32 (broadcastInDim S1600000x1 ![0] bcast_S1600000_S1600000x1_0 : (⟨S1600000, .i32⟩ : BufTy).Contents (Elt F) → (⟨S1600000x1, .i32⟩ : BufTy).Contents (Elt F)),
    StableHlo.ternary main_v31 main_v32 main_v30 main_v33 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v34 (broadcastInDim S100000 ![] bcast_S_S100000 : (⟨S_, .f32⟩ : BufTy).Contents (Elt F) → (⟨S100000, .f32⟩ : BufTy).Contents (Elt F)),
    StableHlo.binary main_v33 main_v34 main_v35 (maximumf : (⟨S100000, .f32⟩ : BufTy).Contents (Elt F) → (⟨S100000, .f32⟩ : BufTy).Contents (Elt F) → (⟨S100000, .f32⟩ : BufTy).Contents (Elt F)),
    StableHlo.unary main_v35 main_v36 (broadcastInDim S100000x1 ![0] bcast_S100000_S100000x1_0 : (⟨S100000, .f32⟩ : BufTy).Contents (Elt F) → (⟨S100000x1, .f32⟩ : BufTy).Contents (Elt F)),
    StableHlo.unary main_v36 main_v37 (broadcastInDim S100000x128 ![0, 1] bcast_S100000x1_S100000x128_0_1 : (⟨S100000x1, .f32⟩ : BufTy).Contents (Elt F) → (⟨S100000x128, .f32⟩ : BufTy).Contents (Elt F)),
    StableHlo.binary main_v29 main_v37 main_v38 (Host.divf : (⟨S100000x128, .f32⟩ : BufTy).Contents (Elt F) → (⟨S100000x128, .f32⟩ : BufTy).Contents (Elt F) → (⟨S100000x128, .f32⟩ : BufTy).Contents (Elt F)),
    StableHlo.unary main_arg5 main_v39 ((transpose S128x128 [1, 0] · transposes_S128x128_S128x128_1_0) : (⟨S128x128, .f32⟩ : BufTy).Contents (Elt F) → (⟨S128x128, .f32⟩ : BufTy).Contents (Elt F)),
    StableHlo.binary main_v38 main_v39 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.unary main_arg7 main_v44 ((transpose S128x128 [1, 0] · transposes_S128x128_S128x128_1_0) : (⟨S128x128, .f32⟩ : BufTy).Contents (Elt F) → (⟨S128x128, .f32⟩ : BufTy).Contents (Elt F)),
    StableHlo.binary main_v25 main_v44 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- @main's 101 operations, in order, every call inlined at its call site. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.TRef.nullary main_call0.c (constantI S_ 32 0#32),
    StableHlo.TRef.unary main_call0.c main_call0.v0 (broadcastInDim S1600000 ![] bcast_S_S1600000),
    StableHlo.TRef.binary (.of main_v1 : StableHlo.TRef sig ⟨S1600000, .i32⟩) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_v1 : StableHlo.TRef sig ⟨S1600000, .i32⟩) main_call0.v2 main_call0.v3 addi,
    StableHlo.TRef.ternary main_call0.v1 main_call0.v3 (.of main_v1 : StableHlo.TRef sig ⟨S1600000, .i32⟩) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0 : StableHlo.TRef sig ⟨S100000x128, .f32⟩) main_call0.v5 main_call0.v13 (fun x i => Host.gather gather_S100000x128_S1600000x1_S1600000x128_1_0_n_n_0_1_1128 x i),
    StableHlo.TRef.unary main_call0.v12 main_call0.v14 (broadcastInDim S1600000x128 ![0] bcast_S1600000_S1600000x128_0),
    StableHlo.TRef.nullary main_call0.cst (constant S_ .f32 0x7FC00000#32),
    StableHlo.TRef.unary main_call0.cst main_call0.v15 (broadcastInDim S1600000x128 ![] bcast_S_S1600000x128),
    StableHlo.TRef.ternary main_call0.v14 main_call0.v13 main_call0.v15 main_call0.v16 select,
    StableHlo.nullary main_cst (constant S_ .f32 0x00000000#32),
    StableHlo.unary main_cst main_v5 (broadcastInDim S100000x128 ![] bcast_S_S100000x128 : (⟨S_, .f32⟩ : BufTy).Contents (Elt F) → (⟨S100000x128, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v8 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v9 (broadcastInDim S100000 ![] bcast_S_S100000 : (⟨S_, .f32⟩ : BufTy).Contents (Elt F) → (⟨S100000, .f32⟩ : BufTy).Contents (Elt F)),
    StableHlo.unary main_v3 main_v10 (broadcastInDim S1600000x1 ![0] bcast_S1600000_S1600000x1_0 : (⟨S1600000, .i32⟩ : BufTy).Contents (Elt F) → (⟨S1600000x1, .i32⟩ : BufTy).Contents (Elt F)),
    StableHlo.ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v12 (broadcastInDim S100000 ![] bcast_S_S100000 : (⟨S_, .f32⟩ : BufTy).Contents (Elt F) → (⟨S100000, .f32⟩ : BufTy).Contents (Elt F)),
    StableHlo.binary main_v11 main_v12 main_v13 (maximumf : (⟨S100000, .f32⟩ : BufTy).Contents (Elt F) → (⟨S100000, .f32⟩ : BufTy).Contents (Elt F) → (⟨S100000, .f32⟩ : BufTy).Contents (Elt F)),
    StableHlo.unary main_v13 main_v14 (broadcastInDim S100000x1 ![0] bcast_S100000_S100000x1_0 : (⟨S100000, .f32⟩ : BufTy).Contents (Elt F) → (⟨S100000x1, .f32⟩ : BufTy).Contents (Elt F)),
    StableHlo.unary main_v14 main_v15 (broadcastInDim S100000x128 ![0, 1] bcast_S100000x1_S100000x128_0_1 : (⟨S100000x1, .f32⟩ : BufTy).Contents (Elt F) → (⟨S100000x128, .f32⟩ : BufTy).Contents (Elt F)),
    StableHlo.binary main_v7 main_v15 main_v16 (Host.divf : (⟨S100000x128, .f32⟩ : BufTy).Contents (Elt F) → (⟨S100000x128, .f32⟩ : BufTy).Contents (Elt F) → (⟨S100000x128, .f32⟩ : BufTy).Contents (Elt F)),
    StableHlo.unary main_arg2 main_v17 ((transpose S128x128 [1, 0] · transposes_S128x128_S128x128_1_0) : (⟨S128x128, .f32⟩ : BufTy).Contents (Elt F) → (⟨S128x128, .f32⟩ : BufTy).Contents (Elt F)),
    StableHlo.binary main_v16 main_v17 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (addf : (⟨S100000x128, .f32⟩ : BufTy).Contents (Elt F) → (⟨S100000x128, .f32⟩ : BufTy).Contents (Elt F) → (⟨S100000x128, .f32⟩ : BufTy).Contents (Elt F)),
    StableHlo.unary main_arg4 main_v22 ((transpose S128x128 [1, 0] · transposes_S128x128_S128x128_1_0) : (⟨S128x128, .f32⟩ : BufTy).Contents (Elt F) → (⟨S128x128, .f32⟩ : BufTy).Contents (Elt F)),
    StableHlo.binary main_arg0 main_v22 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v24 : StableHlo.TRef sig ⟨S100000x128, .f32⟩) main_call1.v0 main_call1.v1 maximumf,
    StableHlo.TRef.nullary main_call2.c (constantI S_ 32 0#32),
    StableHlo.TRef.unary main_call2.c main_call2.v0 (broadcastInDim S1600000 ![] bcast_S_S1600000),
    StableHlo.TRef.binary (.of main_v1 : StableHlo.TRef sig ⟨S1600000, .i32⟩) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_v1 : StableHlo.TRef sig ⟨S1600000, .i32⟩) main_call2.v2 main_call2.v3 addi,
    StableHlo.TRef.ternary main_call2.v1 main_call2.v3 (.of main_v1 : StableHlo.TRef sig ⟨S1600000, .i32⟩) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v25 : StableHlo.TRef sig ⟨S100000x128, .f32⟩) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select,
    StableHlo.nullary main_cst_3 (constant S_ .f32 0x00000000#32),
    StableHlo.unary main_cst_3 main_v27 (broadcastInDim S100000x128 ![] bcast_S_S100000x128 : (⟨S_, .f32⟩ : BufTy).Contents (Elt F) → (⟨S100000x128, .f32⟩ : BufTy).Contents (Elt F)),
    StableHlo.unary main_v3 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v30 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v31 (broadcastInDim S100000 ![] bcast_S_S100000 : (⟨S_, .f32⟩ : BufTy).Contents (Elt F) → (⟨S100000, .f32⟩ : BufTy).Contents (Elt F)),
    StableHlo.unary main_v3 main_v32 (broadcastInDim S1600000x1 ![0] bcast_S1600000_S1600000x1_0 : (⟨S1600000, .i32⟩ : BufTy).Contents (Elt F) → (⟨S1600000x1, .i32⟩ : BufTy).Contents (Elt F)),
    StableHlo.ternary main_v31 main_v32 main_v30 main_v33 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v34 (broadcastInDim S100000 ![] bcast_S_S100000 : (⟨S_, .f32⟩ : BufTy).Contents (Elt F) → (⟨S100000, .f32⟩ : BufTy).Contents (Elt F)),
    StableHlo.binary main_v33 main_v34 main_v35 (maximumf : (⟨S100000, .f32⟩ : BufTy).Contents (Elt F) → (⟨S100000, .f32⟩ : BufTy).Contents (Elt F) → (⟨S100000, .f32⟩ : BufTy).Contents (Elt F)),
    StableHlo.unary main_v35 main_v36 (broadcastInDim S100000x1 ![0] bcast_S100000_S100000x1_0 : (⟨S100000, .f32⟩ : BufTy).Contents (Elt F) → (⟨S100000x1, .f32⟩ : BufTy).Contents (Elt F)),
    StableHlo.unary main_v36 main_v37 (broadcastInDim S100000x128 ![0, 1] bcast_S100000x1_S100000x128_0_1 : (⟨S100000x1, .f32⟩ : BufTy).Contents (Elt F) → (⟨S100000x128, .f32⟩ : BufTy).Contents (Elt F)),
    StableHlo.binary main_v29 main_v37 main_v38 (Host.divf : (⟨S100000x128, .f32⟩ : BufTy).Contents (Elt F) → (⟨S100000x128, .f32⟩ : BufTy).Contents (Elt F) → (⟨S100000x128, .f32⟩ : BufTy).Contents (Elt F)),
    StableHlo.unary main_arg5 main_v39 ((transpose S128x128 [1, 0] · transposes_S128x128_S128x128_1_0) : (⟨S128x128, .f32⟩ : BufTy).Contents (Elt F) → (⟨S128x128, .f32⟩ : BufTy).Contents (Elt F)),
    StableHlo.binary main_v38 main_v39 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.unary main_arg7 main_v44 ((transpose S128x128 [1, 0] · transposes_S128x128_S128x128_1_0) : (⟨S128x128, .f32⟩ : BufTy).Contents (Elt F) → (⟨S128x128, .f32⟩ : BufTy).Contents (Elt F)),
    StableHlo.binary main_v25 main_v44 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The line is its six stretches one after the other. -/
theorem ops_split : (ops : List (HloOp τ sig (Elt F))) = opsA ++ (opsT1 ++ (opsB ++ (opsR ++ (opsT2 ++ opsC)))) := rfl

-- one hundred and one binds re-associated: the rewrite under the chain recurses once per statement
set_option maxRecDepth 8192 in
set_option maxHeartbeats 1600000 in
/-- @main is that straight line: the callees' definitions unfolded at their calls, both sides are one chain of
    steps once sequencing is reassociated. -/
theorem main_eq (c : Dev nD) : main (F := F) c = seq ops := by
  simp only [main, fn_take.body, fn_take_0.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

set_option maxRecDepth 8192 in
/-- From any memory with zero counters every weakly fair execution of @main terminates, and every buffer ends at
    the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerms.lean ====
/-
  The reference's intermediate arrays as functions of its arguments, each exactly as the program composes it.

  From the edge table: the source row and the destination row, each sliced out and flattened. From node features z
  and a row of indices s: the gathered rows (an index below zero is moved up by the number of nodes; a row whose
  moved index still falls outside the table reads as not-a-number). From node features and the edge table: the
  gathered source rows summed per destination, the number of edges per destination clamped below by one, that
  count spread over the feature axis, and their quotient — the mean of the neighbours' rows.
-/
import proofs.«152399_j53850299957912_1_alg».proof.Proof.Gen.ReferenceIdeal
import Idealize.ShloMosaic.PureOps.Ideal

noncomputable section

namespace Cert.ReferenceIdeal.RefTerms

open Cert.ReferenceIdeal Cert.ReferenceIdeal.Gen Idealize.ShloMosaic

/-- The source of every edge: row 0 of the edge table, flattened. -/
def srcOf (ei : IVec S2x1600000 32) : IVec S1600000 32 :=
  shapeCast S1600000 (extractStridedSlice S1x1600000 ![0, 0] ei slices_S2x1600000_S1x1600000_0_0) shapeCasts_S1x1600000_S1600000

/-- The destination of every edge: row 1 of the edge table, flattened. -/
def dstOf (ei : IVec S2x1600000 32) : IVec S1600000 32 :=
  shapeCast S1600000 (extractStridedSlice S1x1600000 ![1, 0] ei slices_S2x1600000_S1x1600000_1_0) shapeCasts_S1x1600000_S1600000

/-- The rows of z at the indices s, one per edge. -/
def take (z : FVec Ideal S100000x128 .f32) (s : IVec S1600000 32) : FVec Ideal S1600000x128 .f32 :=
  select (broadcastInDim S1600000x128 ![0] bcast_S1600000_S1600000x128_0 (Host.reduce IntOp.andi (andi (cmpi .sge (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)) (broadcastInDim S1600000x1 ![] bcast_S_S1600000x1 (constantI S_ 32 0#32))) (cmpi .sle (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_)) (Host.gather gather_S100000x128_S1600000x1_S1600000x128_1_0_n_n_0_1_1128 z (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s))) (broadcastInDim S1600000x128 ![] bcast_S_S1600000x128 (constant (F := Ideal) S_ .f32 0x7FC00000#32))

/-- The source rows of z summed at each destination node. -/
def segSum (z : FVec Ideal S100000x128 .f32) (ei : IVec S2x1600000 32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (dstOf ei)) (take z (srcOf ei))

/-- The number of edges arriving at each node, or one where none arrives. -/
def cnt (ei : IVec S2x1600000 32) : FVec Ideal S100000 .f32 :=
  maximumf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (dstOf ei)) (broadcastInDim S1600000 ![] bcast_S_S1600000 (constant (F := Ideal) S_ .f32 0x3F800000#32))) (broadcastInDim S100000 ![] bcast_S_S100000 (constant (F := Ideal) S_ .f32 0x3F800000#32))

/-- The clamped count spread over the feature axis. -/
def cntB (ei : IVec S2x1600000 32) : FVec Ideal S100000x128 .f32 :=
  broadcastInDim S100000x128 ![0, 1] bcast_S100000x1_S100000x128_0_1 (broadcastInDim S100000x1 ![0] bcast_S100000_S100000x1_0 (cnt ei))

/-- The mean of the source rows arriving at each node. -/
def agg (z : FVec Ideal S100000x128 .f32) (ei : IVec S2x1600000 32) : FVec Ideal S100000x128 .f32 :=
  Host.divf (F := Ideal) (segSum z ei) (cntB ei)

end Cert.ReferenceIdeal.RefTerms

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibHostKeepdims.lean ====
/-
  The host's keepdims layout forms and its one-axis sum of a matrix, read at an index.

  * `bcast_a_a1_apply`: an `[a]` vector placed along axis 0 of an `[a, 1]` column reads, at `(p, u)`, the vector at `p`.
  * `bcast_a1_ab_apply`: an `[a, 1]` column spread over `b` columns reads, at `(p, q)`, the column at `(p, 0)`.
  * `bcast_b_1b_apply`: a `[b]` vector placed along axis 1 of a `[1, b]` row reads, at `(u, k)`, the vector at `k`.
  * `hostRowSum_apply`: at the ideal values the host's sum of an `[a, b]` matrix along axis 1, from the initial value
    `init`, is at `p` the initial value plus the sum over `k` of the entries `(p, k)`.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostKeepdims

open Idealize.ShloMosaic Idealize.ShloMosaic.ValueIdx

variable {α : Type}

/-- An `[a]` vector placed along axis 0 of an `[a, 1]` column reads, at `(p, u)`, the vector at `p`. -/
theorem bcast_a_a1_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column spread over `b` columns reads, at `(p, q)`, the column at `(p, 0)`. -/
theorem bcast_a1_ab_apply {a b : ℕ} (h : (⟨2, ![a, 1]⟩ : Shape).BroadcastsInDim ⟨2, ![a, b]⟩ ![0, 1]) (v : (⟨2, ![a, 1]⟩ : Shape).Idx → α)
    (p : Fin a) (q : Fin b) : broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector placed along axis 1 of a `[1, b]` row reads, at `(u, k)`, the vector at `k`. -/
theorem bcast_b_1b_apply {b : ℕ} (h : (⟨1, ![b]⟩ : Shape).BroadcastsInDim ⟨2, ![1, b]⟩ ![1]) (v : (⟨1, ![b]⟩ : Shape).Idx → α)
    (u : Fin 1) (k : Fin b) : broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- At the ideal values the host's sum of an `[a, b]` matrix along axis 1 is, at `p`, the initial value plus the sum over
    `k` of the entries `(p, k)`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) (Finset.sum_congr rfl fun k _ => congrArg x (funext fun ax => Fin.ext ?_))
  match ax with
  | ⟨0, _⟩ => rfl
  | ⟨1, _⟩ => rfl

end Cert.LibHostKeepdims

end
-- ==== Proof.RefRead.lean ====
/-
  One layer's dense part, as the reference composes it, read entry by entry on the extended reals.

  The reference multiplies the aggregated features by the transposed left weights, adds the bias row spread over
  all nodes, and adds the node features times the transposed right weights. At node p and output feature q the
  first product is ∑ₖ A(p, k) · Wl(q, k) (the transposed weights at (k, q) are the weights at (q, k)), the bias
  row reads b(q), and the second product is ∑ₖ z(p, k) · Wr(q, k): exactly the dense part of the specification,
  in the same grouping. With the larger of that and the zero array around it, it is the rectified dense part.
-/
import proofs.«152399_j53850299957912_1_alg».proof.Proof.Gen.ReferenceIdeal
import proofs.«152399_j53850299957912_1_alg».proof.Proof.Spec
import proofs.«152399_j53850299957912_1_alg».proof.Proof.LibPlainDot
import proofs.«152399_j53850299957912_1_alg».proof.Proof.LibHostKeepdims
import Idealize.ShloMosaic.Lib.Pipeline.Value
import Idealize.ShloMosaic.Lib.ValueLayout

noncomputable section

open scoped BigOperators

namespace Cert.ReferenceIdeal.RefRead

open Cert.ReferenceIdeal Cert.ReferenceIdeal.Gen Idealize.ShloMosaic Idealize.ShloMosaic.ValueIdx

/-- A `[1, b]` row spread over `a` rows reads, at `(p, q)`, the row at `(0, q)`. -/
theorem bcast_1b_ab_apply {α : Type} {a b : ℕ} (h : (⟨2, ![1, b]⟩ : Shape).BroadcastsInDim ⟨2, ![a, b]⟩ ![0, 1])
    (v : (⟨2, ![1, b]⟩ : Shape).Idx → α) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- The program's dimension numbers for its products are those of a plain 100000×128 by 128×128 product. -/
theorem dot_eq_plain : dot_S100000x128_S128x128_S100000x128_1_0_0_1_n_n = DotDims.plain 100000 128 128 := rfl

/-- A product with transposed weights, read at (p, q): ∑ₖ X(p, k) · W(q, k). -/
theorem dotT_apply (X : FVec Ideal S100000x128 .f32) (W : FVec Ideal S128x128 .f32) (p : Fin 100000) (q : Fin 128) :
    Host.dotGeneral (F := Ideal) dot_S100000x128_S128x128_S100000x128_1_0_0_1_n_n none X
        (transpose S128x128 [1, 0] W transposes_S128x128_S128x128_1_0) (ix2 p q)
      = ∑ k : Fin 128, X (ix2 p k) * W (ix2 q k) := by
  rw [dot_eq_plain]
  refine (Idealize.ShloMosaic.PlainDot.dotGeneral_apply 100000 128 128 none .single X _ p q).trans ?_
  refine Finset.sum_congr rfl fun k _ => ?_
  rw [transpose_ix2_apply W transposes_S128x128_S128x128_1_0 k q]

/-- The bias row spread over all nodes, read at (p, q): b(q). -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  rw [bcast_1b_ab_apply bcast_S1x128_S100000x128_0_1 _ p q]
  exact Cert.LibHostKeepdims.bcast_b_1b_apply bcast_S128_S1x128_1 b (0 : Fin 1) q

/-- The dense part as the reference composes it, at (p, q). -/
theorem dense_apply (A z : FVec Ideal S100000x128 .f32) (Wl Wr : FVec Ideal S128x128 .f32) (b : FVec Ideal S128 .f32)
    (p : Fin 100000) (q : Fin 128) :
    addf (addf (Host.dotGeneral (F := Ideal) dot_S100000x128_S128x128_S100000x128_1_0_0_1_n_n none A
            (transpose S128x128 [1, 0] Wl transposes_S128x128_S128x128_1_0))
          (broadcastInDim S100000x128 ![0, 1] bcast_S1x128_S100000x128_0_1 (broadcastInDim S1x128 ![1] bcast_S128_S1x128_1 b)))
        (Host.dotGeneral (F := Ideal) dot_S100000x128_S128x128_S100000x128_1_0_0_1_n_n none z
          (transpose S128x128 [1, 0] Wr transposes_S128x128_S128x128_1_0)) (ix2 p q)
      = Cert.Sage.linAt A z Wl b Wr p q := by
  rw [addf_apply, addf_apply, dotT_apply, dotT_apply, bias_apply]
  rfl

/-- The dense part as the reference composes it is the specification's. -/
theorem dense_eq (A z : FVec Ideal S100000x128 .f32) (Wl Wr : FVec Ideal S128x128 .f32) (b : FVec Ideal S128 .f32) :
    addf (addf (Host.dotGeneral (F := Ideal) dot_S100000x128_S128x128_S100000x128_1_0_0_1_n_n none A
            (transpose S128x128 [1, 0] Wl transposes_S128x128_S128x128_1_0))
          (broadcastInDim S100000x128 ![0, 1] bcast_S1x128_S100000x128_0_1 (broadcastInDim S1x128 ![1] bcast_S128_S1x128_1 b)))
        (Host.dotGeneral (F := Ideal) dot_S100000x128_S128x128_S100000x128_1_0_0_1_n_n none z
          (transpose S128x128 [1, 0] Wr transposes_S128x128_S128x128_1_0))
      = Cert.Sage.lin A z Wl b Wr := by
  funext i
  obtain ⟨p, q, rfl⟩ : ∃ (p : Fin 100000) (q : Fin 128), i = ix2 p q := ⟨i 0, i 1, eq_ix2 i⟩
  rw [dense_apply, Cert.Sage.lin_ix2]

/-- The rectified dense part as the reference composes it is the specification's. -/
theorem denseRelu_eq (A z : FVec Ideal S100000x128 .f32) (Wl Wr : FVec Ideal S128x128 .f32) (b : FVec Ideal S128 .f32) :
    maximumf (addf (addf (Host.dotGeneral (F := Ideal) dot_S100000x128_S128x128_S100000x128_1_0_0_1_n_n none A
            (transpose S128x128 [1, 0] Wl transposes_S128x128_S128x128_1_0))
          (broadcastInDim S100000x128 ![0, 1] bcast_S1x128_S100000x128_0_1 (broadcastInDim S1x128 ![1] bcast_S128_S1x128_1 b)))
        (Host.dotGeneral (F := Ideal) dot_S100000x128_S128x128_S100000x128_1_0_0_1_n_n none z
          (transpose S128x128 [1, 0] Wr transposes_S128x128_S128x128_1_0)))
      (broadcastInDim S100000x128 ![] bcast_S_S100000x128 (constant (F := Ideal) S_ .f32 0x00000000#32))
      = Cert.Sage.linRelu A z Wl b Wr := by
  funext i
  obtain ⟨p, q, rfl⟩ : ∃ (p : Fin 100000) (q : Fin 128), i = ix2 p q := ⟨i 0, i 1, eq_ix2 i⟩
  rw [maximumf_apply, dense_apply, Cert.Sage.linRelu_ix2]
  refine congrArg (max _) ?_
  exact Ideal.ofBits_zero_f32

end Cert.ReferenceIdeal.RefRead

end
-- ==== Proof.RefValue.lean ====
/-
  What the reference's line of host operations leaves in its result buffer, as a function of its arguments.

  The line is read stretch by stretch, each from ANY buffer contents: the index rows; the gather; the first
  layer's mean and dense part (the specification's dense part, by the reading of the dense part entry by entry);
  the rectifier; the gather again, now of the hidden features; the second layer's mean and dense part. A stretch
  changes only the buffers it writes, so the arguments and the index rows pass through. Chained, the result is
  the second layer's dense part of (the mean of the hidden features over each node's incoming edges, the hidden
  features), the hidden features being the first layer's rectified dense part of (the mean of the input features,
  the input features).
-/
import proofs.«152399_j53850299957912_1_alg».proof.Proof.RefRun
import proofs.«152399_j53850299957912_1_alg».proof.Proof.RefTerms
import proofs.«152399_j53850299957912_1_alg».proof.Proof.RefRead

noncomputable section

namespace Cert.ReferenceIdeal.RefValue

open Cert.ReferenceIdeal Cert.ReferenceIdeal.Gen Cert.ReferenceIdeal.RefRun Cert.ReferenceIdeal.RefTerms
open Idealize.ShloMosaic Idealize.ShloMosaic.TcCoe Idealize.ShloMosaic.ValueIdx Idealize.SL.Sem Idealize.ShloMosaic.StableHlo

/-- Two lines run one after the other: the contents after the second, from the contents after the first. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => after_append l l₂ (op.result V)

/-- The mean of message rows at each destination node: the rows summed per destination, divided by the number of
    rows arriving there (one where none arrives). -/
def meanOf (d : IVec S1600000 32) (msgs : FVec Ideal S1600000x128 .f32) : FVec Ideal S100000x128 .f32 :=
  Host.divf (F := Ideal) (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 d) msgs) (broadcastInDim S100000x128 ![0, 1] bcast_S100000x1_S100000x128_0_1 (broadcastInDim S100000x1 ![0] bcast_S100000_S100000x1_0 (maximumf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 d) (broadcastInDim S1600000 ![] bcast_S_S1600000 (constant (F := Ideal) S_ .f32 0x3F800000#32))) (broadcastInDim S100000 ![] bcast_S_S100000 (constant (F := Ideal) S_ .f32 0x3F800000#32)))))

/-- The neighbours' mean is the mean of the gathered source rows at the destinations. -/
theorem agg_eq_meanOf (z : FVec Ideal S100000x128 .f32) (ei : IVec S2x1600000 32) :
    agg z ei = meanOf (dstOf ei) (take z (srcOf ei)) := rfl

/-- The larger of the dense part and the zero array is the rectified dense part. -/
theorem relu_lin (A z : FVec Ideal S100000x128 .f32) (Wl : FVec Ideal S128x128 .f32) (b : FVec Ideal S128 .f32)
    (Wr : FVec Ideal S128x128 .f32) :
    maximumf (Cert.Sage.lin A z Wl b Wr) (broadcastInDim S100000x128 ![] bcast_S_S100000x128 (constant (F := Ideal) S_ .f32 0x00000000#32)) = Cert.Sage.linRelu A z Wl b Wr := by
  funext i
  obtain ⟨p, q, rfl⟩ : ∃ (p : Fin 100000) (q : Fin 128), i = ix2 p q := ⟨i 0, i 1, eq_ix2 i⟩
  rw [maximumf_apply, Cert.Sage.lin_ix2, Cert.Sage.linRelu_ix2]
  exact congrArg (max _) Ideal.ofBits_zero_f32

/-- A typed reference's two transports undo each other. -/
theorem ofBuf_toBuf {sig : RefSig} {Val : EltTy → Type} {T : BufTy} (x : TRef sig T) (v : T.Contents Val) : x.ofBuf (x.toBuf v) = v := by
  obtain ⟨r, h, h1, h2⟩ := x
  subst h
  rfl

/-! ## Each stretch, from any contents -/

theorem A_v1 (V : Valuation τ sig (Elt Ideal)) : after opsA V (main_v1 : DevRef τ sig) = srcOf (V (main_arg1 : DevRef τ sig)) := by
  after_results_simp
  rfl

theorem A_v3 (V : Valuation τ sig (Elt Ideal)) : after opsA V (main_v3 : DevRef τ sig) = dstOf (V (main_arg1 : DevRef τ sig)) := by
  after_results_simp
  rfl

attribute [local irreducible] Host.reduce Host.gather in
theorem T1_v4 (V : Valuation τ sig (Elt Ideal)) : after opsT1 V (main_v4 : DevRef τ sig) = take (V (main_arg0 : DevRef τ sig)) (V (main_v1 : DevRef τ sig)) := by
  after_results_simp
  simp only [ofBuf_toBuf]
  have e1 : ((TRef.of main_v1 : TRef sig ⟨S1600000, .i32⟩).ofBuf (V (Proc.devRef .tc main_v1))) = V (Proc.devRef .tc main_v1) := rfl
  have e0 : ((TRef.of main_arg0 : TRef sig ⟨S100000x128, .f32⟩).ofBuf (V (Proc.devRef .tc main_arg0))) = V (Proc.devRef .tc main_arg0) := rfl
  have e2 : ∀ X : (⟨S1600000x128, .f32⟩ : BufTy).Contents (Elt Ideal), (TRef.of main_v4 : TRef sig ⟨S1600000x128, .f32⟩).toBuf X = X := fun _ => rfl
  rw [e2]
  simp only [e0, e1]
  unfold take
  rfl

attribute [local irreducible] Host.scatterAdd in
theorem B_v24 (V : Valuation τ sig (Elt Ideal)) :
    after opsB V (main_v24 : DevRef τ sig)
      = Cert.Sage.lin (meanOf (V (main_v3 : DevRef τ sig)) (V (main_v4 : DevRef τ sig))) (V (main_arg0 : DevRef τ sig)) (V (main_arg2 : DevRef τ sig)) (V (main_arg3 : DevRef τ sig)) (V (main_arg4 : DevRef τ sig)) := by
  after_results_simp
  exact RefRead.dense_eq (meanOf (V (main_v3 : DevRef τ sig)) (V (main_v4 : DevRef τ sig))) (V (main_arg0 : DevRef τ sig)) (V (main_arg2 : DevRef τ sig)) (V (main_arg4 : DevRef τ sig)) (V (main_arg3 : DevRef τ sig))

theorem R_v25 (V : Valuation τ sig (Elt Ideal)) : after opsR V (main_v25 : DevRef τ sig) = maximumf (V (main_v24 : DevRef τ sig)) (broadcastInDim S100000x128 ![] bcast_S_S100000x128 (constant (F := Ideal) S_ .f32 0x00000000#32)) := by
  after_results_simp
  simp only [TRef.toBuf, TRef.ofBuf, cast_eq]

attribute [local irreducible] Host.reduce Host.gather in
theorem T2_v26 (V : Valuation τ sig (Elt Ideal)) : after opsT2 V (main_v26 : DevRef τ sig) = take (V (main_v25 : DevRef τ sig)) (V (main_v1 : DevRef τ sig)) := by
  after_results_simp
  simp only [ofBuf_toBuf]
  have e1 : ((TRef.of main_v1 : TRef sig ⟨S1600000, .i32⟩).ofBuf (V (Proc.devRef .tc main_v1))) = V (Proc.devRef .tc main_v1) := rfl
  have e0 : ((TRef.of main_v25 : TRef sig ⟨S100000x128, .f32⟩).ofBuf (V (Proc.devRef .tc main_v25))) = V (Proc.devRef .tc main_v25) := rfl
  have e2 : ∀ X : (⟨S1600000x128, .f32⟩ : BufTy).Contents (Elt Ideal), (TRef.of main_v26 : TRef sig ⟨S1600000x128, .f32⟩).toBuf X = X := fun _ => rfl
  rw [e2]
  simp only [e0, e1]
  unfold take
  rfl

attribute [local irreducible] Host.scatterAdd in
theorem C_v46 (V : Valuation τ sig (Elt Ideal)) :
    after opsC V (main_v46 : DevRef τ sig)
      = Cert.Sage.lin (meanOf (V (main_v3 : DevRef τ sig)) (V (main_v26 : DevRef τ sig))) (V (main_v25 : DevRef τ sig)) (V (main_arg5 : DevRef τ sig)) (V (main_arg6 : DevRef τ sig)) (V (main_arg7 : DevRef τ sig)) := by
  after_results_simp
  exact RefRead.dense_eq (meanOf (V (main_v3 : DevRef τ sig)) (V (main_v26 : DevRef τ sig))) (V (main_v25 : DevRef τ sig)) (V (main_arg5 : DevRef τ sig)) (V (main_arg7 : DevRef τ sig)) (V (main_arg6 : DevRef τ sig))

/-! ### What stretch A leaves alone -/

theorem A_keep_main_arg0 (V : Valuation τ sig (Elt Ideal)) : after opsA V (main_arg0 : DevRef τ sig) = V (main_arg0 : DevRef τ sig) := by
  after_results_simp
theorem A_keep_main_arg1 (V : Valuation τ sig (Elt Ideal)) : after opsA V (main_arg1 : DevRef τ sig) = V (main_arg1 : DevRef τ sig) := by
  after_results_simp
theorem A_keep_main_arg2 (V : Valuation τ sig (Elt Ideal)) : after opsA V (main_arg2 : DevRef τ sig) = V (main_arg2 : DevRef τ sig) := by
  after_results_simp
theorem A_keep_main_arg3 (V : Valuation τ sig (Elt Ideal)) : after opsA V (main_arg3 : DevRef τ sig) = V (main_arg3 : DevRef τ sig) := by
  after_results_simp
theorem A_keep_main_arg4 (V : Valuation τ sig (Elt Ideal)) : after opsA V (main_arg4 : DevRef τ sig) = V (main_arg4 : DevRef τ sig) := by
  after_results_simp
theorem A_keep_main_arg5 (V : Valuation τ sig (Elt Ideal)) : after opsA V (main_arg5 : DevRef τ sig) = V (main_arg5 : DevRef τ sig) := by
  after_results_simp
theorem A_keep_main_arg6 (V : Valuation τ sig (Elt Ideal)) : after opsA V (main_arg6 : DevRef τ sig) = V (main_arg6 : DevRef τ sig) := by
  after_results_simp
theorem A_keep_main_arg7 (V : Valuation τ sig (Elt Ideal)) : after opsA V (main_arg7 : DevRef τ sig) = V (main_arg7 : DevRef τ sig) := by
  after_results_simp

/-! ### What stretch T1 leaves alone -/

theorem T1_keep_main_arg0 (V : Valuation τ sig (Elt Ideal)) : after opsT1 V (main_arg0 : DevRef τ sig) = V (main_arg0 : DevRef τ sig) := by
  after_results_simp
theorem T1_keep_main_arg1 (V : Valuation τ sig (Elt Ideal)) : after opsT1 V (main_arg1 : DevRef τ sig) = V (main_arg1 : DevRef τ sig) := by
  after_results_simp
theorem T1_keep_main_arg2 (V : Valuation τ sig (Elt Ideal)) : after opsT1 V (main_arg2 : DevRef τ sig) = V (main_arg2 : DevRef τ sig) := by
  after_results_simp
theorem T1_keep_main_arg3 (V : Valuation τ sig (Elt Ideal)) : after opsT1 V (main_arg3 : DevRef τ sig) = V (main_arg3 : DevRef τ sig) := by
  after_results_simp
theorem T1_keep_main_arg4 (V : Valuation τ sig (Elt Ideal)) : after opsT1 V (main_arg4 : DevRef τ sig) = V (main_arg4 : DevRef τ sig) := by
  after_results_simp
theorem T1_keep_main_arg5 (V : Valuation τ sig (Elt Ideal)) : after opsT1 V (main_arg5 : DevRef τ sig) = V (main_arg5 : DevRef τ sig) := by
  after_results_simp
theorem T1_keep_main_arg6 (V : Valuation τ sig (Elt Ideal)) : after opsT1 V (main_arg6 : DevRef τ sig) = V (main_arg6 : DevRef τ sig) := by
  after_results_simp
theorem T1_keep_main_arg7 (V : Valuation τ sig (Elt Ideal)) : after opsT1 V (main_arg7 : DevRef τ sig) = V (main_arg7 : DevRef τ sig) := by
  after_results_simp
theorem T1_keep_main_v1 (V : Valuation τ sig (Elt Ideal)) : after opsT1 V (main_v1 : DevRef τ sig) = V (main_v1 : DevRef τ sig) := by
  after_results_simp
theorem T1_keep_main_v3 (V : Valuation τ sig (Elt Ideal)) : after opsT1 V (main_v3 : DevRef τ sig) = V (main_v3 : DevRef τ sig) := by
  after_results_simp

/-! ### What stretch B leaves alone -/

theorem B_keep_main_arg0 (V : Valuation τ sig (Elt Ideal)) : after opsB V (main_arg0 : DevRef τ sig) = V (main_arg0 : DevRef τ sig) := by
  after_results_simp
theorem B_keep_main_arg1 (V : Valuation τ sig (Elt Ideal)) : after opsB V (main_arg1 : DevRef τ sig) = V (main_arg1 : DevRef τ sig) := by
  after_results_simp
theorem B_keep_main_arg2 (V : Valuation τ sig (Elt Ideal)) : after opsB V (main_arg2 : DevRef τ sig) = V (main_arg2 : DevRef τ sig) := by
  after_results_simp
theorem B_keep_main_arg3 (V : Valuation τ sig (Elt Ideal)) : after opsB V (main_arg3 : DevRef τ sig) = V (main_arg3 : DevRef τ sig) := by
  after_results_simp
theorem B_keep_main_arg4 (V : Valuation τ sig (Elt Ideal)) : after opsB V (main_arg4 : DevRef τ sig) = V (main_arg4 : DevRef τ sig) := by
  after_results_simp
theorem B_keep_main_arg5 (V : Valuation τ sig (Elt Ideal)) : after opsB V (main_arg5 : DevRef τ sig) = V (main_arg5 : DevRef τ sig) := by
  after_results_simp
theorem B_keep_main_arg6 (V : Valuation τ sig (Elt Ideal)) : after opsB V (main_arg6 : DevRef τ sig) = V (main_arg6 : DevRef τ sig) := by
  after_results_simp
theorem B_keep_main_arg7 (V : Valuation τ sig (Elt Ideal)) : after opsB V (main_arg7 : DevRef τ sig) = V (main_arg7 : DevRef τ sig) := by
  after_results_simp
theorem B_keep_main_v1 (V : Valuation τ sig (Elt Ideal)) : after opsB V (main_v1 : DevRef τ sig) = V (main_v1 : DevRef τ sig) := by
  after_results_simp
theorem B_keep_main_v3 (V : Valuation τ sig (Elt Ideal)) : after opsB V (main_v3 : DevRef τ sig) = V (main_v3 : DevRef τ sig) := by
  after_results_simp

/-! ### What stretch R leaves alone -/

theorem R_keep_main_arg0 (V : Valuation τ sig (Elt Ideal)) : after opsR V (main_arg0 : DevRef τ sig) = V (main_arg0 : DevRef τ sig) := by
  after_results_simp
theorem R_keep_main_arg1 (V : Valuation τ sig (Elt Ideal)) : after opsR V (main_arg1 : DevRef τ sig) = V (main_arg1 : DevRef τ sig) := by
  after_results_simp
theorem R_keep_main_arg2 (V : Valuation τ sig (Elt Ideal)) : after opsR V (main_arg2 : DevRef τ sig) = V (main_arg2 : DevRef τ sig) := by
  after_results_simp
theorem R_keep_main_arg3 (V : Valuation τ sig (Elt Ideal)) : after opsR V (main_arg3 : DevRef τ sig) = V (main_arg3 : DevRef τ sig) := by
  after_results_simp
theorem R_keep_main_arg4 (V : Valuation τ sig (Elt Ideal)) : after opsR V (main_arg4 : DevRef τ sig) = V (main_arg4 : DevRef τ sig) := by
  after_results_simp
theorem R_keep_main_arg5 (V : Valuation τ sig (Elt Ideal)) : after opsR V (main_arg5 : DevRef τ sig) = V (main_arg5 : DevRef τ sig) := by
  after_results_simp
theorem R_keep_main_arg6 (V : Valuation τ sig (Elt Ideal)) : after opsR V (main_arg6 : DevRef τ sig) = V (main_arg6 : DevRef τ sig) := by
  after_results_simp
theorem R_keep_main_arg7 (V : Valuation τ sig (Elt Ideal)) : after opsR V (main_arg7 : DevRef τ sig) = V (main_arg7 : DevRef τ sig) := by
  after_results_simp
theorem R_keep_main_v1 (V : Valuation τ sig (Elt Ideal)) : after opsR V (main_v1 : DevRef τ sig) = V (main_v1 : DevRef τ sig) := by
  after_results_simp
theorem R_keep_main_v3 (V : Valuation τ sig (Elt Ideal)) : after opsR V (main_v3 : DevRef τ sig) = V (main_v3 : DevRef τ sig) := by
  after_results_simp

/-! ### What stretch T2 leaves alone -/

theorem T2_keep_main_arg0 (V : Valuation τ sig (Elt Ideal)) : after opsT2 V (main_arg0 : DevRef τ sig) = V (main_arg0 : DevRef τ sig) := by
  after_results_simp
theorem T2_keep_main_arg1 (V : Valuation τ sig (Elt Ideal)) : after opsT2 V (main_arg1 : DevRef τ sig) = V (main_arg1 : DevRef τ sig) := by
  after_results_simp
theorem T2_keep_main_arg2 (V : Valuation τ sig (Elt Ideal)) : after opsT2 V (main_arg2 : DevRef τ sig) = V (main_arg2 : DevRef τ sig) := by
  after_results_simp
theorem T2_keep_main_arg3 (V : Valuation τ sig (Elt Ideal)) : after opsT2 V (main_arg3 : DevRef τ sig) = V (main_arg3 : DevRef τ sig) := by
  after_results_simp
theorem T2_keep_main_arg4 (V : Valuation τ sig (Elt Ideal)) : after opsT2 V (main_arg4 : DevRef τ sig) = V (main_arg4 : DevRef τ sig) := by
  after_results_simp
theorem T2_keep_main_arg5 (V : Valuation τ sig (Elt Ideal)) : after opsT2 V (main_arg5 : DevRef τ sig) = V (main_arg5 : DevRef τ sig) := by
  after_results_simp
theorem T2_keep_main_arg6 (V : Valuation τ sig (Elt Ideal)) : after opsT2 V (main_arg6 : DevRef τ sig) = V (main_arg6 : DevRef τ sig) := by
  after_results_simp
theorem T2_keep_main_arg7 (V : Valuation τ sig (Elt Ideal)) : after opsT2 V (main_arg7 : DevRef τ sig) = V (main_arg7 : DevRef τ sig) := by
  after_results_simp
theorem T2_keep_main_v3 (V : Valuation τ sig (Elt Ideal)) : after opsT2 V (main_v3 : DevRef τ sig) = V (main_v3 : DevRef τ sig) := by
  after_results_simp
theorem T2_keep_main_v25 (V : Valuation τ sig (Elt Ideal)) : after opsT2 V (main_v25 : DevRef τ sig) = V (main_v25 : DevRef τ sig) := by
  after_results_simp

/-! ### What stretch C leaves alone -/

theorem C_keep_main_arg0 (V : Valuation τ sig (Elt Ideal)) : after opsC V (main_arg0 : DevRef τ sig) = V (main_arg0 : DevRef τ sig) := by
  after_results_simp
theorem C_keep_main_arg1 (V : Valuation τ sig (Elt Ideal)) : after opsC V (main_arg1 : DevRef τ sig) = V (main_arg1 : DevRef τ sig) := by
  after_results_simp
theorem C_keep_main_arg2 (V : Valuation τ sig (Elt Ideal)) : after opsC V (main_arg2 : DevRef τ sig) = V (main_arg2 : DevRef τ sig) := by
  after_results_simp
theorem C_keep_main_arg3 (V : Valuation τ sig (Elt Ideal)) : after opsC V (main_arg3 : DevRef τ sig) = V (main_arg3 : DevRef τ sig) := by
  after_results_simp
theorem C_keep_main_arg4 (V : Valuation τ sig (Elt Ideal)) : after opsC V (main_arg4 : DevRef τ sig) = V (main_arg4 : DevRef τ sig) := by
  after_results_simp
theorem C_keep_main_arg5 (V : Valuation τ sig (Elt Ideal)) : after opsC V (main_arg5 : DevRef τ sig) = V (main_arg5 : DevRef τ sig) := by
  after_results_simp
theorem C_keep_main_arg6 (V : Valuation τ sig (Elt Ideal)) : after opsC V (main_arg6 : DevRef τ sig) = V (main_arg6 : DevRef τ sig) := by
  after_results_simp
theorem C_keep_main_arg7 (V : Valuation τ sig (Elt Ideal)) : after opsC V (main_arg7 : DevRef τ sig) = V (main_arg7 : DevRef τ sig) := by
  after_results_simp

/-! ## The stretches chained -/

/-- The contents after the index rows; after the first gather; after the first layer's dense part; after the
    rectifier; after the second gather. -/
abbrev W1 (V : Valuation τ sig (Elt Ideal)) : Valuation τ sig (Elt Ideal) := after opsA V
abbrev W2 (V : Valuation τ sig (Elt Ideal)) : Valuation τ sig (Elt Ideal) := after opsT1 (W1 V)
abbrev W3 (V : Valuation τ sig (Elt Ideal)) : Valuation τ sig (Elt Ideal) := after opsB (W2 V)
abbrev W4 (V : Valuation τ sig (Elt Ideal)) : Valuation τ sig (Elt Ideal) := after opsR (W3 V)
abbrev W5 (V : Valuation τ sig (Elt Ideal)) : Valuation τ sig (Elt Ideal) := after opsT2 (W4 V)

/-! ### After the index rows -/

theorem s1_arg0 (V : Valuation τ sig (Elt Ideal)) : W1 V (main_arg0 : DevRef τ sig) = V (main_arg0 : DevRef τ sig) :=
  A_keep_main_arg0 V
theorem s1_arg1 (V : Valuation τ sig (Elt Ideal)) : W1 V (main_arg1 : DevRef τ sig) = V (main_arg1 : DevRef τ sig) :=
  A_keep_main_arg1 V
theorem s1_arg2 (V : Valuation τ sig (Elt Ideal)) : W1 V (main_arg2 : DevRef τ sig) = V (main_arg2 : DevRef τ sig) :=
  A_keep_main_arg2 V
theorem s1_arg3 (V : Valuation τ sig (Elt Ideal)) : W1 V (main_arg3 : DevRef τ sig) = V (main_arg3 : DevRef τ sig) :=
  A_keep_main_arg3 V
theorem s1_arg4 (V : Valuation τ sig (Elt Ideal)) : W1 V (main_arg4 : DevRef τ sig) = V (main_arg4 : DevRef τ sig) :=
  A_keep_main_arg4 V
theorem s1_arg5 (V : Valuation τ sig (Elt Ideal)) : W1 V (main_arg5 : DevRef τ sig) = V (main_arg5 : DevRef τ sig) :=
  A_keep_main_arg5 V
theorem s1_arg6 (V : Valuation τ sig (Elt Ideal)) : W1 V (main_arg6 : DevRef τ sig) = V (main_arg6 : DevRef τ sig) :=
  A_keep_main_arg6 V
theorem s1_arg7 (V : Valuation τ sig (Elt Ideal)) : W1 V (main_arg7 : DevRef τ sig) = V (main_arg7 : DevRef τ sig) :=
  A_keep_main_arg7 V
theorem s1_v1 (V : Valuation τ sig (Elt Ideal)) : W1 V (main_v1 : DevRef τ sig) = srcOf (V (main_arg1 : DevRef τ sig)) := A_v1 V
theorem s1_v3 (V : Valuation τ sig (Elt Ideal)) : W1 V (main_v3 : DevRef τ sig) = dstOf (V (main_arg1 : DevRef τ sig)) := A_v3 V

/-! ### After the first gather -/

theorem s2_arg0 (V : Valuation τ sig (Elt Ideal)) : W2 V (main_arg0 : DevRef τ sig) = V (main_arg0 : DevRef τ sig) :=
  (T1_keep_main_arg0 (W1 V)).trans (s1_arg0 V)
theorem s2_arg1 (V : Valuation τ sig (Elt Ideal)) : W2 V (main_arg1 : DevRef τ sig) = V (main_arg1 : DevRef τ sig) :=
  (T1_keep_main_arg1 (W1 V)).trans (s1_arg1 V)
theorem s2_arg2 (V : Valuation τ sig (Elt Ideal)) : W2 V (main_arg2 : DevRef τ sig) = V (main_arg2 : DevRef τ sig) :=
  (T1_keep_main_arg2 (W1 V)).trans (s1_arg2 V)
theorem s2_arg3 (V : Valuation τ sig (Elt Ideal)) : W2 V (main_arg3 : DevRef τ sig) = V (main_arg3 : DevRef τ sig) :=
  (T1_keep_main_arg3 (W1 V)).trans (s1_arg3 V)
theorem s2_arg4 (V : Valuation τ sig (Elt Ideal)) : W2 V (main_arg4 : DevRef τ sig) = V (main_arg4 : DevRef τ sig) :=
  (T1_keep_main_arg4 (W1 V)).trans (s1_arg4 V)
theorem s2_arg5 (V : Valuation τ sig (Elt Ideal)) : W2 V (main_arg5 : DevRef τ sig) = V (main_arg5 : DevRef τ sig) :=
  (T1_keep_main_arg5 (W1 V)).trans (s1_arg5 V)
theorem s2_arg6 (V : Valuation τ sig (Elt Ideal)) : W2 V (main_arg6 : DevRef τ sig) = V (main_arg6 : DevRef τ sig) :=
  (T1_keep_main_arg6 (W1 V)).trans (s1_arg6 V)
theorem s2_arg7 (V : Valuation τ sig (Elt Ideal)) : W2 V (main_arg7 : DevRef τ sig) = V (main_arg7 : DevRef τ sig) :=
  (T1_keep_main_arg7 (W1 V)).trans (s1_arg7 V)
theorem s2_v1 (V : Valuation τ sig (Elt Ideal)) : W2 V (main_v1 : DevRef τ sig) = srcOf (V (main_arg1 : DevRef τ sig)) :=
  (T1_keep_main_v1 (W1 V)).trans (s1_v1 V)
theorem s2_v3 (V : Valuation τ sig (Elt Ideal)) : W2 V (main_v3 : DevRef τ sig) = dstOf (V (main_arg1 : DevRef τ sig)) :=
  (T1_keep_main_v3 (W1 V)).trans (s1_v3 V)
theorem s2_v4 (V : Valuation τ sig (Elt Ideal)) : W2 V (main_v4 : DevRef τ sig) = take (V (main_arg0 : DevRef τ sig)) (srcOf (V (main_arg1 : DevRef τ sig))) :=
  (T1_v4 (W1 V)).trans (by rw [s1_arg0 V, s1_v1 V])

/-! ### After the first layer's dense part -/

theorem s3_arg0 (V : Valuation τ sig (Elt Ideal)) : W3 V (main_arg0 : DevRef τ sig) = V (main_arg0 : DevRef τ sig) :=
  (B_keep_main_arg0 (W2 V)).trans (s2_arg0 V)
theorem s3_arg1 (V : Valuation τ sig (Elt Ideal)) : W3 V (main_arg1 : DevRef τ sig) = V (main_arg1 : DevRef τ sig) :=
  (B_keep_main_arg1 (W2 V)).trans (s2_arg1 V)
theorem s3_arg2 (V : Valuation τ sig (Elt Ideal)) : W3 V (main_arg2 : DevRef τ sig) = V (main_arg2 : DevRef τ sig) :=
  (B_keep_main_arg2 (W2 V)).trans (s2_arg2 V)
theorem s3_arg3 (V : Valuation τ sig (Elt Ideal)) : W3 V (main_arg3 : DevRef τ sig) = V (main_arg3 : DevRef τ sig) :=
  (B_keep_main_arg3 (W2 V)).trans (s2_arg3 V)
theorem s3_arg4 (V : Valuation τ sig (Elt Ideal)) : W3 V (main_arg4 : DevRef τ sig) = V (main_arg4 : DevRef τ sig) :=
  (B_keep_main_arg4 (W2 V)).trans (s2_arg4 V)
theorem s3_arg5 (V : Valuation τ sig (Elt Ideal)) : W3 V (main_arg5 : DevRef τ sig) = V (main_arg5 : DevRef τ sig) :=
  (B_keep_main_arg5 (W2 V)).trans (s2_arg5 V)
theorem s3_arg6 (V : Valuation τ sig (Elt Ideal)) : W3 V (main_arg6 : DevRef τ sig) = V (main_arg6 : DevRef τ sig) :=
  (B_keep_main_arg6 (W2 V)).trans (s2_arg6 V)
theorem s3_arg7 (V : Valuation τ sig (Elt Ideal)) : W3 V (main_arg7 : DevRef τ sig) = V (main_arg7 : DevRef τ sig) :=
  (B_keep_main_arg7 (W2 V)).trans (s2_arg7 V)
theorem s3_v1 (V : Valuation τ sig (Elt Ideal)) : W3 V (main_v1 : DevRef τ sig) = srcOf (V (main_arg1 : DevRef τ sig)) :=
  (B_keep_main_v1 (W2 V)).trans (s2_v1 V)
theorem s3_v3 (V : Valuation τ sig (Elt Ideal)) : W3 V (main_v3 : DevRef τ sig) = dstOf (V (main_arg1 : DevRef τ sig)) :=
  (B_keep_main_v3 (W2 V)).trans (s2_v3 V)
theorem s3_v24 (V : Valuation τ sig (Elt Ideal)) : W3 V (main_v24 : DevRef τ sig) = Cert.Sage.lin (agg (V (main_arg0 : DevRef τ sig)) (V (main_arg1 : DevRef τ sig))) (V (main_arg0 : DevRef τ sig)) (V (main_arg2 : DevRef τ sig)) (V (main_arg3 : DevRef τ sig)) (V (main_arg4 : DevRef τ sig)) :=
  (B_v24 (W2 V)).trans (by rw [s2_v3 V, s2_v4 V, s2_arg0 V, s2_arg2 V, s2_arg3 V, s2_arg4 V, ← agg_eq_meanOf])

/-! ### After the rectifier -/

theorem s4_arg0 (V : Valuation τ sig (Elt Ideal)) : W4 V (main_arg0 : DevRef τ sig) = V (main_arg0 : DevRef τ sig) :=
  (R_keep_main_arg0 (W3 V)).trans (s3_arg0 V)
theorem s4_arg1 (V : Valuation τ sig (Elt Ideal)) : W4 V (main_arg1 : DevRef τ sig) = V (main_arg1 : DevRef τ sig) :=
  (R_keep_main_arg1 (W3 V)).trans (s3_arg1 V)
theorem s4_arg2 (V : Valuation τ sig (Elt Ideal)) : W4 V (main_arg2 : DevRef τ sig) = V (main_arg2 : DevRef τ sig) :=
  (R_keep_main_arg2 (W3 V)).trans (s3_arg2 V)
theorem s4_arg3 (V : Valuation τ sig (Elt Ideal)) : W4 V (main_arg3 : DevRef τ sig) = V (main_arg3 : DevRef τ sig) :=
  (R_keep_main_arg3 (W3 V)).trans (s3_arg3 V)
theorem s4_arg4 (V : Valuation τ sig (Elt Ideal)) : W4 V (main_arg4 : DevRef τ sig) = V (main_arg4 : DevRef τ sig) :=
  (R_keep_main_arg4 (W3 V)).trans (s3_arg4 V)
theorem s4_arg5 (V : Valuation τ sig (Elt Ideal)) : W4 V (main_arg5 : DevRef τ sig) = V (main_arg5 : DevRef τ sig) :=
  (R_keep_main_arg5 (W3 V)).trans (s3_arg5 V)
theorem s4_arg6 (V : Valuation τ sig (Elt Ideal)) : W4 V (main_arg6 : DevRef τ sig) = V (main_arg6 : DevRef τ sig) :=
  (R_keep_main_arg6 (W3 V)).trans (s3_arg6 V)
theorem s4_arg7 (V : Valuation τ sig (Elt Ideal)) : W4 V (main_arg7 : DevRef τ sig) = V (main_arg7 : DevRef τ sig) :=
  (R_keep_main_arg7 (W3 V)).trans (s3_arg7 V)
theorem s4_v1 (V : Valuation τ sig (Elt Ideal)) : W4 V (main_v1 : DevRef τ sig) = srcOf (V (main_arg1 : DevRef τ sig)) :=
  (R_keep_main_v1 (W3 V)).trans (s3_v1 V)
theorem s4_v3 (V : Valuation τ sig (Elt Ideal)) : W4 V (main_v3 : DevRef τ sig) = dstOf (V (main_arg1 : DevRef τ sig)) :=
  (R_keep_main_v3 (W3 V)).trans (s3_v3 V)
theorem s4_v25 (V : Valuation τ sig (Elt Ideal)) : W4 V (main_v25 : DevRef τ sig) = Cert.Sage.linRelu (agg (V (main_arg0 : DevRef τ sig)) (V (main_arg1 : DevRef τ sig))) (V (main_arg0 : DevRef τ sig)) (V (main_arg2 : DevRef τ sig)) (V (main_arg3 : DevRef τ sig)) (V (main_arg4 : DevRef τ sig)) :=
  (R_v25 (W3 V)).trans (by rw [s3_v24 V]; exact relu_lin _ _ _ _ _)

/-! ### After the second gather -/

theorem s5_arg0 (V : Valuation τ sig (Elt Ideal)) : W5 V (main_arg0 : DevRef τ sig) = V (main_arg0 : DevRef τ sig) :=
  (T2_keep_main_arg0 (W4 V)).trans (s4_arg0 V)
theorem s5_arg1 (V : Valuation τ sig (Elt Ideal)) : W5 V (main_arg1 : DevRef τ sig) = V (main_arg1 : DevRef τ sig) :=
  (T2_keep_main_arg1 (W4 V)).trans (s4_arg1 V)
theorem s5_arg2 (V : Valuation τ sig (Elt Ideal)) : W5 V (main_arg2 : DevRef τ sig) = V (main_arg2 : DevRef τ sig) :=
  (T2_keep_main_arg2 (W4 V)).trans (s4_arg2 V)
theorem s5_arg3 (V : Valuation τ sig (Elt Ideal)) : W5 V (main_arg3 : DevRef τ sig) = V (main_arg3 : DevRef τ sig) :=
  (T2_keep_main_arg3 (W4 V)).trans (s4_arg3 V)
theorem s5_arg4 (V : Valuation τ sig (Elt Ideal)) : W5 V (main_arg4 : DevRef τ sig) = V (main_arg4 : DevRef τ sig) :=
  (T2_keep_main_arg4 (W4 V)).trans (s4_arg4 V)
theorem s5_arg5 (V : Valuation τ sig (Elt Ideal)) : W5 V (main_arg5 : DevRef τ sig) = V (main_arg5 : DevRef τ sig) :=
  (T2_keep_main_arg5 (W4 V)).trans (s4_arg5 V)
theorem s5_arg6 (V : Valuation τ sig (Elt Ideal)) : W5 V (main_arg6 : DevRef τ sig) = V (main_arg6 : DevRef τ sig) :=
  (T2_keep_main_arg6 (W4 V)).trans (s4_arg6 V)
theorem s5_arg7 (V : Valuation τ sig (Elt Ideal)) : W5 V (main_arg7 : DevRef τ sig) = V (main_arg7 : DevRef τ sig) :=
  (T2_keep_main_arg7 (W4 V)).trans (s4_arg7 V)
theorem s5_v3 (V : Valuation τ sig (Elt Ideal)) : W5 V (main_v3 : DevRef τ sig) = dstOf (V (main_arg1 : DevRef τ sig)) :=
  (T2_keep_main_v3 (W4 V)).trans (s4_v3 V)
theorem s5_v25 (V : Valuation τ sig (Elt Ideal)) : W5 V (main_v25 : DevRef τ sig) = (Cert.Sage.linRelu (agg (V (main_arg0 : DevRef τ sig)) (V (main_arg1 : DevRef τ sig))) (V (main_arg0 : DevRef τ sig)) (V (main_arg2 : DevRef τ sig)) (V (main_arg3 : DevRef τ sig)) (V (main_arg4 : DevRef τ sig))) :=
  (T2_keep_main_v25 (W4 V)).trans (s4_v25 V)
theorem s5_v26 (V : Valuation τ sig (Elt Ideal)) : W5 V (main_v26 : DevRef τ sig) = take (Cert.Sage.linRelu (agg (V (main_arg0 : DevRef τ sig)) (V (main_arg1 : DevRef τ sig))) (V (main_arg0 : DevRef τ sig)) (V (main_arg2 : DevRef τ sig)) (V (main_arg3 : DevRef τ sig)) (V (main_arg4 : DevRef τ sig))) (srcOf (V (main_arg1 : DevRef τ sig))) :=
  (T2_v26 (W4 V)).trans (by rw [s4_v25 V, s4_v1 V])

/-! ### After the second layer's dense part -/

theorem s6_arg0 (V : Valuation τ sig (Elt Ideal)) : after opsC (W5 V) (main_arg0 : DevRef τ sig) = V (main_arg0 : DevRef τ sig) :=
  (C_keep_main_arg0 (W5 V)).trans (s5_arg0 V)
theorem s6_arg1 (V : Valuation τ sig (Elt Ideal)) : after opsC (W5 V) (main_arg1 : DevRef τ sig) = V (main_arg1 : DevRef τ sig) :=
  (C_keep_main_arg1 (W5 V)).trans (s5_arg1 V)
theorem s6_arg2 (V : Valuation τ sig (Elt Ideal)) : after opsC (W5 V) (main_arg2 : DevRef τ sig) = V (main_arg2 : DevRef τ sig) :=
  (C_keep_main_arg2 (W5 V)).trans (s5_arg2 V)
theorem s6_arg3 (V : Valuation τ sig (Elt Ideal)) : after opsC (W5 V) (main_arg3 : DevRef τ sig) = V (main_arg3 : DevRef τ sig) :=
  (C_keep_main_arg3 (W5 V)).trans (s5_arg3 V)
theorem s6_arg4 (V : Valuation τ sig (Elt Ideal)) : after opsC (W5 V) (main_arg4 : DevRef τ sig) = V (main_arg4 : DevRef τ sig) :=
  (C_keep_main_arg4 (W5 V)).trans (s5_arg4 V)
theorem s6_arg5 (V : Valuation τ sig (Elt Ideal)) : after opsC (W5 V) (main_arg5 : DevRef τ sig) = V (main_arg5 : DevRef τ sig) :=
  (C_keep_main_arg5 (W5 V)).trans (s5_arg5 V)
theorem s6_arg6 (V : Valuation τ sig (Elt Ideal)) : after opsC (W5 V) (main_arg6 : DevRef τ sig) = V (main_arg6 : DevRef τ sig) :=
  (C_keep_main_arg6 (W5 V)).trans (s5_arg6 V)
theorem s6_arg7 (V : Valuation τ sig (Elt Ideal)) : after opsC (W5 V) (main_arg7 : DevRef τ sig) = V (main_arg7 : DevRef τ sig) :=
  (C_keep_main_arg7 (W5 V)).trans (s5_arg7 V)
theorem s6_v46 (V : Valuation τ sig (Elt Ideal)) : after opsC (W5 V) (main_v46 : DevRef τ sig) = Cert.Sage.lin (agg (Cert.Sage.linRelu (agg (V (main_arg0 : DevRef τ sig)) (V (main_arg1 : DevRef τ sig))) (V (main_arg0 : DevRef τ sig)) (V (main_arg2 : DevRef τ sig)) (V (main_arg3 : DevRef τ sig)) (V (main_arg4 : DevRef τ sig))) (V (main_arg1 : DevRef τ sig))) (Cert.Sage.linRelu (agg (V (main_arg0 : DevRef τ sig)) (V (main_arg1 : DevRef τ sig))) (V (main_arg0 : DevRef τ sig)) (V (main_arg2 : DevRef τ sig)) (V (main_arg3 : DevRef τ sig)) (V (main_arg4 : DevRef τ sig))) (V (main_arg5 : DevRef τ sig)) (V (main_arg6 : DevRef τ sig)) (V (main_arg7 : DevRef τ sig)) :=
  (C_v46 (W5 V)).trans (by rw [s5_v3 V, s5_v26 V, s5_v25 V, s5_arg5 V, s5_arg6 V, s5_arg7 V, ← agg_eq_meanOf])

/-! ## The whole line -/

/-- The line's result: the second layer's dense part of the mean of the hidden features' neighbours and the hidden
    features, the hidden features being the first layer's rectified dense part. -/
theorem out_eq (V : Valuation τ sig (Elt Ideal)) :
    after ops V (main_v46 : DevRef τ sig) = Cert.Sage.lin (agg (Cert.Sage.linRelu (agg (V (main_arg0 : DevRef τ sig)) (V (main_arg1 : DevRef τ sig))) (V (main_arg0 : DevRef τ sig)) (V (main_arg2 : DevRef τ sig)) (V (main_arg3 : DevRef τ sig)) (V (main_arg4 : DevRef τ sig))) (V (main_arg1 : DevRef τ sig))) (Cert.Sage.linRelu (agg (V (main_arg0 : DevRef τ sig)) (V (main_arg1 : DevRef τ sig))) (V (main_arg0 : DevRef τ sig)) (V (main_arg2 : DevRef τ sig)) (V (main_arg3 : DevRef τ sig)) (V (main_arg4 : DevRef τ sig))) (V (main_arg5 : DevRef τ sig)) (V (main_arg6 : DevRef τ sig)) (V (main_arg7 : DevRef τ sig)) := by
  rw [ops_split, after_append, after_append, after_append, after_append, after_append]
  exact s6_v46 V

theorem arg0_eq (V : Valuation τ sig (Elt Ideal)) : after ops V (main_arg0 : DevRef τ sig) = V (main_arg0 : DevRef τ sig) := by
  rw [ops_split, after_append, after_append, after_append, after_append, after_append]
  exact s6_arg0 V
theorem arg1_eq (V : Valuation τ sig (Elt Ideal)) : after ops V (main_arg1 : DevRef τ sig) = V (main_arg1 : DevRef τ sig) := by
  rw [ops_split, after_append, after_append, after_append, after_append, after_append]
  exact s6_arg1 V
theorem arg2_eq (V : Valuation τ sig (Elt Ideal)) : after ops V (main_arg2 : DevRef τ sig) = V (main_arg2 : DevRef τ sig) := by
  rw [ops_split, after_append, after_append, after_append, after_append, after_append]
  exact s6_arg2 V
theorem arg3_eq (V : Valuation τ sig (Elt Ideal)) : after ops V (main_arg3 : DevRef τ sig) = V (main_arg3 : DevRef τ sig) := by
  rw [ops_split, after_append, after_append, after_append, after_append, after_append]
  exact s6_arg3 V
theorem arg4_eq (V : Valuation τ sig (Elt Ideal)) : after ops V (main_arg4 : DevRef τ sig) = V (main_arg4 : DevRef τ sig) := by
  rw [ops_split, after_append, after_append, after_append, after_append, after_append]
  exact s6_arg4 V
theorem arg5_eq (V : Valuation τ sig (Elt Ideal)) : after ops V (main_arg5 : DevRef τ sig) = V (main_arg5 : DevRef τ sig) := by
  rw [ops_split, after_append, after_append, after_append, after_append, after_append]
  exact s6_arg5 V
theorem arg6_eq (V : Valuation τ sig (Elt Ideal)) : after ops V (main_arg6 : DevRef τ sig) = V (main_arg6 : DevRef τ sig) := by
  rw [ops_split, after_append, after_append, after_append, after_append, after_append]
  exact s6_arg6 V
theorem arg7_eq (V : Valuation τ sig (Elt Ideal)) : after ops V (main_arg7 : DevRef τ sig) = V (main_arg7 : DevRef τ sig) := by
  rw [ops_split, after_append, after_append, after_append, after_append, after_append]
  exact s6_arg7 V

/-- From any memory with zero counters every weakly fair execution of @main terminates with the result buffer at the
    two-layer value of the launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46) = Cert.Sage.lin (agg (Cert.Sage.linRelu (agg (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg1))) (Cert.Sage.linRelu (agg (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v46).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c))⟩)
    (run_main m ρ)

end Cert.ReferenceIdeal.RefValue

end
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«152399_j53850299957912_1_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.LibGcnLaws.lean ====
/-
  Algebraic laws of a graph-convolution layer on the extended reals.

  A layer  D (A + I) D z  with a 0/1 adjacency matrix A, the identity I and a nonnegative finite
  diagonal D can be evaluated row by row as  d i * ((∑ j, a i j * (d j * z j)) + d i * z i)  or with the
  normalised matrix formed first,  ∑ j, ((d i * (a i j + e i j)) * d j) * z j.  On the extended reals
  multiplication does not distribute over addition in general, but it does for a nonnegative finite
  multiplier on the left and for a sum of two nonnegative multipliers on the right; that is all the
  two evaluations need to agree for arbitrary (possibly infinite) z.

  Also here: an invariant of a scatter that overwrites entries, the degree sum of A + I, finiteness of
  a sum of zeros and ones, and the float literals the layer spells.
-/
import Idealize.ShloMosaic.PureOps.Ideal
import Idealize.ShloMosaic.PureOps.ShapeOps

noncomputable section

open scoped BigOperators

namespace Idealize.ShloMosaic.GcnLaws

open Idealize.ShloMosaic

/-- An invariant of a left fold: a property that holds at the start and is kept by every step holds
    at the end. -/
theorem foldl_invariant {β γ : Type} (Q : β → Prop) (f : β → γ → β) (hf : ∀ b c, Q b → Q (f b c)) :
    ∀ (l : List γ) (b : β), Q b → Q (l.foldl f b)
  | [], _, hb => hb
  | c :: l, b, hb => foldl_invariant Q f hf l (f b c) (hf b c hb)

/-- A scatter whose body returns the update leaves every entry either the operand's or one of the
    updates': a property that holds of all the operand's entries and of all the updates holds of every
    entry of the result. Each step of the fold either keeps the running result or overwrites one entry
    with an update, so the property of all entries is kept along the fold. -/
theorem scatter_set_ind {α : Type} {s si u : Shape} {w : Nat} (d : ScatterDims s si u) (x : s.Idx → α)
    (idx : IVec si w) (upd : u.Idx → α) (P : α → Prop) (hx : ∀ i, P (x i)) (hu : ∀ j, P (upd j))
    (i : s.Idx) : P (Host.scatter d (fun _ b => b) x idx upd i) := by
  unfold Host.scatter
  refine foldl_invariant (fun r : s.Idx → α => ∀ i, P (r i)) _ ?_ _ x hx i
  intro r n hr i'
  dsimp only
  generalize d.resultIdx? (u.rowMajor.symm n) idx = o
  cases o with
  | none => exact hr i'
  | some k =>
    dsimp only
    split_ifs
    · exact hu _
    · exact hr _

/-- A nonnegative finite constant multiplies through a finite sum of extended reals. -/
theorem mul_sum_of_nonneg_ne_top {ι : Type} (s : Finset ι) (c : EReal) (hc0 : 0 ≤ c) (hct : c ≠ ⊤)
    (f : ι → EReal) : c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc0 hct, ih]

/-- The two evaluations of one row of the layer D (A + I) D z agree for every z: with a 0/1 matrix a,
    the identity e and a nonnegative finite diagonal d,
    d i * ((∑ j, a i j * (d j * z j)) + d i * z i) = ∑ j, ((d i * (a i j + e i j)) * d j) * z j.
    Every multiplier that is distributed over a sum is nonnegative and finite (on the left) or a sum of
    two nonnegative terms (on the right), where the extended reals do distribute. -/
theorem layer_law {n : ℕ} (a e : Fin n → Fin n → EReal) (d z : Fin n → EReal)
    (ha : ∀ i j, a i j = 0 ∨ a i j = 1) (he : ∀ i j, e i j = if i = j then 1 else 0)
    (hd0 : ∀ i, 0 ≤ d i) (hdt : ∀ i, d i ≠ ⊤) (i : Fin n) :
    d i * ((∑ j, a i j * (d j * z j)) + d i * z i) = ∑ j, ((d i * (a i j + e i j)) * d j) * z j := by
  have ha0 : ∀ j, 0 ≤ a i j := fun j => by rcases ha i j with h | h <;> rw [h] <;> norm_num
  have he0 : ∀ j, 0 ≤ e i j := fun j => by rw [he]; split_ifs <;> norm_num
  have hterm : ∀ j, ((d i * (a i j + e i j)) * d j) * z j
      = d i * (a i j * (d j * z j)) + d i * (e i j * (d j * z j)) := by
    intro j
    rw [EReal.left_distrib_of_nonneg_of_ne_top (hd0 i) (hdt i),
      EReal.right_distrib_of_nonneg (mul_nonneg (hd0 i) (ha0 j)) (mul_nonneg (hd0 i) (he0 j)),
      EReal.right_distrib_of_nonneg (mul_nonneg (mul_nonneg (hd0 i) (ha0 j)) (hd0 j))
        (mul_nonneg (mul_nonneg (hd0 i) (he0 j)) (hd0 j))]
    simp only [mul_assoc]
  rw [Finset.sum_congr rfl (fun j _ => hterm j), Finset.sum_add_distrib,
    ← mul_sum_of_nonneg_ne_top _ _ (hd0 i) (hdt i), ← mul_sum_of_nonneg_ne_top _ _ (hd0 i) (hdt i),
    ← EReal.left_distrib_of_nonneg_of_ne_top (hd0 i) (hdt i)]
  congr 2
  rw [Finset.sum_eq_single i]
  · rw [he, if_pos rfl, one_mul]
  · intro j _ hji
    rw [he, if_neg (Ne.symm hji), zero_mul]
  · intro h
    exact absurd (Finset.mem_univ i) h

/-- The entries of one row of the identity matrix sum to one. -/
theorem sum_identity_row {n : ℕ} (e : Fin n → Fin n → EReal) (he : ∀ i j, e i j = if i = j then 1 else 0)
    (i : Fin n) : ∑ j, e i j = 1 := by
  rw [Finset.sum_eq_single i]
  · rw [he, if_pos rfl]
  · intro j _ hji
    rw [he, if_neg (Ne.symm hji)]
  · intro h
    exact absurd (Finset.mem_univ i) h

/-- The degree of a vertex with its self-loop, summed from zero over the row of A + I, is the row sum of
    A (each entry times one) plus one: additive rearrangement and the identity's row sum. -/
theorem degree_law {n : ℕ} (a e : Fin n → Fin n → EReal) (he : ∀ i j, e i j = if i = j then 1 else 0)
    (i : Fin n) : (0 + ∑ j, (a i j + e i j)) = (∑ j, a i j * 1) + 1 := by
  rw [zero_add, Finset.sum_add_distrib, sum_identity_row e he i]
  simp only [mul_one]

/-- A finite sum of zeros and ones is a nonnegative real. -/
theorem sum_zero_one_real {ι : Type} (s : Finset ι) (a : ι → EReal) (ha : ∀ j, a j = 0 ∨ a j = 1) :
    ∃ r : ℝ, 0 ≤ r ∧ ∑ j ∈ s, a j = (r : EReal) := by
  classical
  induction s using Finset.induction_on with
  | empty => exact ⟨0, le_refl _, by simp⟩
  | insert b s hb ih =>
    obtain ⟨r, hr0, hr⟩ := ih
    rw [Finset.sum_insert hb, hr]
    rcases ha b with h | h
    · exact ⟨r, hr0, by rw [h, zero_add]⟩
    · exact ⟨1 + r, by positivity, by rw [h, EReal.coe_add, EReal.coe_one]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 pattern of zero is the extended real zero. -/
theorem ofBits_zero_bf16 : Ideal.ofBits .bf16 0x0000#16 = 0 := by simp [Ideal.ofBits, Ideal.ieee]

/-- The f32 pattern `0x322BCC77` (sign 0, exponent 100, fraction 2870391) is the real
    11258999 · 2⁻⁵⁰. -/
theorem ofBits_eps_f32_val :
    Ideal.ofBits .f32 0x322BCC77#32 = (((11258999 : ℝ) * (2 : ℝ) ^ (-50 : ℤ) : ℝ) : EReal) := by
  simp [Ideal.ofBits, Ideal.ieee, -EReal.coe_mul]

/-- The f32 pattern `0x322BCC77` is a nonnegative real. -/
theorem ofBits_eps_f32 : ∃ e : ℝ, 0 ≤ e ∧ Ideal.ofBits .f32 0x322BCC77#32 = (e : EReal) :=
  ⟨(11258999 : ℝ) * (2 : ℝ) ^ (-50 : ℤ), by positivity, ofBits_eps_f32_val⟩

/-- The f32 pattern `0xBF000000` (sign 1, exponent 126, fraction 0) is the real -1/2. -/
theorem ofBits_neg_half_f32_val : Ideal.ofBits .f32 0xBF000000#32 = ((-(1 / 2 : ℝ) : ℝ) : EReal) := by
  simp [Ideal.ofBits, Ideal.ieee, -EReal.coe_mul, -EReal.coe_neg]; norm_num

/-- The f32 pattern `0xBF000000` is a real. -/
theorem ofBits_neg_half_f32 : ∃ p : ℝ, Ideal.ofBits .f32 0xBF000000#32 = (p : EReal) :=
  ⟨-(1 / 2 : ℝ), ofBits_neg_half_f32_val⟩

/-- The inverse square root of a degree: for a nonnegative real r, (r + 1 + ε) to the power -1/2, with
    ε and -1/2 the two f32 literals, is a nonnegative extended real and is not ⊤. Base and exponent are
    reals, the base nonnegative, so the power is a real power of a nonnegative real. -/
theorem dinv_nonneg_finite (r : ℝ) (hr : 0 ≤ r) :
    0 ≤ Ideal.pow (((r : ℝ) : EReal) + 1 + Ideal.ofBits .f32 0x322BCC77#32) (Ideal.ofBits .f32 0xBF000000#32)
    ∧ Ideal.pow ((r : EReal) + 1 + Ideal.ofBits .f32 0x322BCC77#32) (Ideal.ofBits .f32 0xBF000000#32) ≠ ⊤ := by
  obtain ⟨e, he0, he⟩ := ofBits_eps_f32
  obtain ⟨p, hp⟩ := ofBits_neg_half_f32
  rw [he, hp, ← EReal.coe_one, ← EReal.coe_add, ← EReal.coe_add, Ideal.pow_coe_coe]
  exact ⟨EReal.coe_nonneg.mpr (Real.rpow_nonneg (by linarith) p), EReal.coe_ne_top _⟩

end Idealize.ShloMosaic.GcnLaws

end
-- ==== Proof.LibCountMean.lean ====
/-
  Counts and means on the extended reals.

  A count — a scatter-add of ones into zeros along a column of row numbers — holds at every entry a nonnegative
  real number: the number of updates that land there. The larger of such a number and 1 is a real not below 1, and
  for a real divisor c not below 1 every extended real x, the infinities included, has x · (1 / c) = x / c. So a
  segment mean written as a sum times the reciprocal count and one written as the sum divided by the count agree
  with no finiteness assumed of the sums. Also the host's quotient of two arrays read at an index.
-/
import Idealize.ShloMosaic.Lib.ValueIdx
import Idealize.ShloMosaic.PureOps.Ideal
import proofs.«152399_j53850299957912_1_alg».proof.Proof.LibScatterSum
import proofs.«152399_j53850299957912_1_alg».proof.Proof.LibGcnLaws

noncomputable section

open scoped BigOperators

namespace Cert.LibCountMean

open Idealize.ShloMosaic Idealize.ShloMosaic.ValueIdx

/-- A scatter of ones into zeros holds, at every entry, a nonnegative real: the number of updates landing there. -/
theorem count_real {N E : Nat} (wf : ScatterDims.WF ⟨1, ![N]⟩ ⟨2, ![E, 1]⟩ ⟨1, ![E]⟩ [] [0] [0] 1)
    (z : (⟨1, ![N]⟩ : Shape).Idx → EReal) (idx : IVec ⟨2, ![E, 1]⟩ 32) (u : (⟨1, ![E]⟩ : Shape).Idx → EReal)
    (hz : ∀ i, z i = 0) (hu : ∀ j, u j = 1) (p : Fin N) :
    ∃ r : ℝ, 0 ≤ r ∧ Ideal.hostScatterAdd (RowScatter.vecDims N E wf) z idx u (ix1 p) = (r : EReal) := by
  rw [RowScatter.vecScatterAdd_apply, hz]
  simp only [hu]
  obtain ⟨r, hr, hs⟩ := GcnLaws.sum_zero_one_real
    (Finset.univ.filter (fun e : Fin E => (idx (ix2 e (0 : Fin 1))).toInt = (p.val : Int))) (fun _ => (1 : EReal)) (fun _ => Or.inr rfl)
  exact ⟨r, hr, by rw [hs, zero_add]⟩

/-- The larger of a nonnegative real and 1 is a real not below 1. -/
theorem max_one_real (r : ℝ) : ∃ s : ℝ, 1 ≤ s ∧ max ((r : ℝ) : EReal) 1 = (s : EReal) := by
  rcases le_total r 1 with h | h
  · exact ⟨1, le_refl _, by rw [max_eq_right (by exact_mod_cast h)]; exact EReal.coe_one.symm⟩
  · exact ⟨r, h, max_eq_left (by exact_mod_cast h)⟩

/-- The host's quotient of two arrays, read at an index: the quotient of the two entries. -/
theorem hostDivf_at {s : Shape} {φ : FTy} (x y : FVec Ideal s φ) (i : s.Idx) : Host.divf x y i = Ideal.div (x i) (y i) := rfl

/-- For a real divisor not below 1, a product with the reciprocal is the quotient, on every extended real. -/
theorem mean_law (x : EReal) (s : ℝ) (hs : 1 ≤ s) : x * Ideal.div 1 (s : EReal) = Ideal.div x (s : EReal) := by
  have h0 : s ≠ 0 := by linarith
  rw [Ideal.div_coe h0, Ideal.div_coe h0, one_mul]

end Cert.LibCountMean

end
-- ==== Proof.KernelMean.lean ====
/-
  The kernel program's mean aggregation is a quotient.

  The program multiplies the summed messages by the reciprocal degree 1 / max(deg, 1). The degree of a node — ones scattered
  into zeros at the destination numbers — is a nonnegative real number (a count), so max(deg, 1) is a real not below 1, and
  for such a divisor c every extended real x, the infinities included, has x · (1 / c) = x / c. So the program's aggregation
  is the summed messages DIVIDED by max(deg, 1), entry by entry, with nothing assumed finite.
-/
import proofs.«152399_j53850299957912_1_alg».proof.Proof.KernelTerms
import proofs.«152399_j53850299957912_1_alg».proof.Proof.LibCountMean
import proofs.«152399_j53850299957912_1_alg».proof.Proof.LibHostKeepdims
import Idealize.ShloMosaic.Lib.IdealHost
import Idealize.ShloMosaic.PureOps.Ideal.Laws

noncomputable section

namespace Cert.KernelIdeal.Mean

open Cert.KernelIdeal Cert.KernelIdeal.Terms Idealize.ShloMosaic Idealize.ShloMosaic.ValueIdx
open Cert.KernelIdeal.Facts₀

/-- A per-node number spread over the features reads, at (p, q), the number of node p. -/
theorem spread_at (v : FVec Ideal S100000 .f32) (p : Fin 100000) (q : Fin 128) : spread v (ix2 p q) = v (ix1 p) := by
  unfold spread
  rw [Cert.LibHostKeepdims.bcast_a1_ab_apply, Cert.LibHostKeepdims.bcast_a_a1_apply]

/-- Ones scattered into zeros at any row numbers hold a nonnegative real number at every node: a count. -/
theorem count_host (z : FVec Ideal S100000 .f32) (idx : IVec S1600000x1 32) (u : FVec Ideal S1600000 .f32)
    (hz : ∀ i, z i = 0) (hu : ∀ j, u j = 1) (p : Fin 100000) :
    ∃ r : ℝ, 0 ≤ r ∧ Host.scatterAdd (F := Ideal) scatter_S100000_S1600000x1_S1600000_n_0_0_1 z idx u (ix1 p) = (r : EReal) :=
  Cert.LibCountMean.count_real scatter_S100000_S1600000x1_S1600000_n_0_0_1_wf z idx u hz hu p

/-- The degree of a node is a nonnegative real number: the number of edges arriving there. -/
theorem deg_real (d : IVec S1600000 32) (p : Fin 100000) : ∃ r : ℝ, 0 ≤ r ∧ deg d (ix1 p) = (r : EReal) := by
  unfold deg
  exact count_host _ _ _
    (fun i => by rw [broadcastInDim_scalar_apply, constant_apply, Ideal.ofBits_zero_f32])
    (fun j => by rw [broadcastInDim_scalar_apply, constant_apply, GcnLaws.ofBits_one_f32]) p

/-- The degree of a node, but at least 1, is a real number not below 1. -/
theorem degMax_real (d : IVec S1600000 32) (p : Fin 100000) : ∃ s : ℝ, 1 ≤ s ∧ degMax d (ix1 p) = (s : EReal) := by
  obtain ⟨r, hr, e⟩ := deg_real d p
  unfold degMax
  rw [maximumf_apply, e, broadcastInDim_scalar_apply, constant_apply, GcnLaws.ofBits_one_f32]
  exact Cert.LibCountMean.max_one_real r

/-- The program's aggregation, summed messages times the reciprocal degree, is the summed messages divided by the degree
    (at least 1). -/
theorem agg_eq_div (z : FVec Ideal S100000x128 .f32) (s d : IVec S1600000 32) :
    agg z s d = Host.divf (F := Ideal) (segSum (take z s) d) (spread (degMax d)) := by
  funext i
  obtain ⟨p, q, rfl⟩ : ∃ (p : Fin 100000) (q : Fin 128), i = ix2 p q := ⟨i 0, i 1, eq_ix2 i⟩
  unfold agg
  rw [mulf_apply, Cert.LibCountMean.hostDivf_at, spread_at, spread_at]
  unfold degInv
  rw [Cert.LibCountMean.hostDivf_at, broadcastInDim_scalar_apply, constant_apply, GcnLaws.ofBits_one_f32]
  obtain ⟨s', hs, e⟩ := degMax_real d p
  rw [e]
  exact Cert.LibCountMean.mean_law _ s' hs

end Cert.KernelIdeal.Mean

end
-- ==== Proof.Bridge.lean ====
/-
  The two programs' aggregations are one function.

  Both programs slice the same two rows out of the edge list, gather the same messages and sum them at the same destination
  nodes: the same operations at the same dimension numbers, so term by term the same arrays. They differ in the last step
  only — the kernel's program multiplies by the reciprocal of max(deg, 1), the reference divides by max(deg, 1) — and that is
  no difference on the extended reals, the degree being a count.
-/
import proofs.«152399_j53850299957912_1_alg».proof.Proof.KernelTerms
import proofs.«152399_j53850299957912_1_alg».proof.Proof.KernelMean
import proofs.«152399_j53850299957912_1_alg».proof.Proof.RefTerms

noncomputable section

namespace Cert.Bridge

open Idealize.ShloMosaic

/-- The two programs' dimension numbers of the row gather, of the row scatter and of the count's scatter are the same. -/
theorem gather_eq : Cert.KernelIdeal.gather_S100000x128_S1600000x1_S1600000x128_1_0_n_n_0_1_1128
    = Cert.ReferenceIdeal.gather_S100000x128_S1600000x1_S1600000x128_1_0_n_n_0_1_1128 := rfl
theorem scatter_eq : Cert.KernelIdeal.scatter_S100000x128_S1600000x1_S1600000x128_1_0_0_1
    = Cert.ReferenceIdeal.scatter_S100000x128_S1600000x1_S1600000x128_1_0_0_1 := rfl
theorem scatter1_eq : Cert.KernelIdeal.scatter_S100000_S1600000x1_S1600000_n_0_0_1
    = Cert.ReferenceIdeal.scatter_S100000_S1600000x1_S1600000_n_0_0_1 := rfl

theorem srcOf_eq (ei : IVec ⟨2, ![2, 1600000]⟩ 32) : Cert.KernelIdeal.Terms.srcOf ei = Cert.ReferenceIdeal.RefTerms.srcOf ei := rfl
theorem dstOf_eq (ei : IVec ⟨2, ![2, 1600000]⟩ 32) : Cert.KernelIdeal.Terms.dstOf ei = Cert.ReferenceIdeal.RefTerms.dstOf ei := rfl

/-- The gathered messages. -/
theorem take_eq (z : FVec Ideal ⟨2, ![100000, 128]⟩ .f32) (s : IVec ⟨1, ![1600000]⟩ 32) : Cert.KernelIdeal.Terms.take z s = Cert.ReferenceIdeal.RefTerms.take z s := by
  unfold Cert.KernelIdeal.Terms.take Cert.KernelIdeal.Terms.takeOk Cert.KernelIdeal.Terms.takeIdx Cert.ReferenceIdeal.RefTerms.take
  rw [gather_eq]

/-- The messages summed per destination node. -/
theorem segSum_eq (z : FVec Ideal ⟨2, ![100000, 128]⟩ .f32) (ei : IVec ⟨2, ![2, 1600000]⟩ 32) :
    Cert.KernelIdeal.Terms.segSum (Cert.KernelIdeal.Terms.take z (Cert.KernelIdeal.Terms.srcOf ei)) (Cert.KernelIdeal.Terms.dstOf ei) = Cert.ReferenceIdeal.RefTerms.segSum z ei := by
  unfold Cert.KernelIdeal.Terms.segSum Cert.ReferenceIdeal.RefTerms.segSum
  rw [take_eq, srcOf_eq, dstOf_eq, scatter_eq]

/-- The degree (at least 1) spread over the features. -/
theorem cntB_eq (ei : IVec ⟨2, ![2, 1600000]⟩ 32) : Cert.KernelIdeal.Terms.spread (Cert.KernelIdeal.Terms.degMax (Cert.KernelIdeal.Terms.dstOf ei)) = Cert.ReferenceIdeal.RefTerms.cntB ei := by
  unfold Cert.KernelIdeal.Terms.spread Cert.KernelIdeal.Terms.degMax Cert.KernelIdeal.Terms.deg Cert.ReferenceIdeal.RefTerms.cntB Cert.ReferenceIdeal.RefTerms.cnt
  rw [dstOf_eq, scatter1_eq]

/-- The kernel program's aggregation is the reference's. -/
theorem agg_eq (z : FVec Ideal ⟨2, ![100000, 128]⟩ .f32) (ei : IVec ⟨2, ![2, 1600000]⟩ 32) :
    Cert.KernelIdeal.Terms.agg z (Cert.KernelIdeal.Terms.srcOf ei) (Cert.KernelIdeal.Terms.dstOf ei) = Cert.ReferenceIdeal.RefTerms.agg z ei := by
  rw [Cert.KernelIdeal.Mean.agg_eq_div, segSum_eq, cntB_eq]
  rfl

end Cert.Bridge

end
-- ==== Proof.lean ====
/-
  Two SAGE layers: the kernel's program against the plain jnp reference, on the extended reals.

  Each layer is h ↦ lin(agg h, h, Wl, b, Wr), the first followed by max(·, 0). In the kernel's program agg h is computed on the
  host (gather, scatter-add, times the reciprocal degree) and lin by a pallas_call over 20 row blocks; in the reference
  everything is host operations, with agg h the summed messages divided by the degree. The dense parts agree entry by entry
  (one sum over the 128 input features per weight matrix, in the same grouping); the aggregations agree because the degree is
  a count, so multiplying by the reciprocal of max(deg, 1) is dividing by it, on every extended real. No input needs to be
  finite for that: the precondition is never opened.

  The three frames are the generated frame certificates (the reference's: its run with the result dropped); the idealization
  rewrote nothing, so there is nothing to preserve.
-/
import proofs.«152399_j53850299957912_1_alg».proof.Defs
import proofs.«152399_j53850299957912_1_alg».proof.Proof.Gen.Kernel
import proofs.«152399_j53850299957912_1_alg».proof.Proof.Gen.Kernel.Skeleton
import proofs.«152399_j53850299957912_1_alg».proof.Proof.Gen.Kernel.Launch
import proofs.«152399_j53850299957912_1_alg».proof.Proof.Gen.Kernel.Points
import proofs.«152399_j53850299957912_1_alg».proof.Proof.Gen.Kernel.Frame
import proofs.«152399_j53850299957912_1_alg».proof.Proof.Gen.KernelIdeal
import proofs.«152399_j53850299957912_1_alg».proof.Proof.Gen.KernelIdeal.Skeleton
import proofs.«152399_j53850299957912_1_alg».proof.Proof.Gen.KernelIdeal.Launch
import proofs.«152399_j53850299957912_1_alg».proof.Proof.Gen.KernelIdeal.Points
import proofs.«152399_j53850299957912_1_alg».proof.Proof.Gen.KernelIdeal.Frame
import proofs.«152399_j53850299957912_1_alg».proof.Proof.Gen.ReferenceIdeal
import proofs.«152399_j53850299957912_1_alg».proof.Proof.Gen.Pre_finite_inputs
import proofs.«152399_j53850299957912_1_alg».proof.Proof.KernelValue
import proofs.«152399_j53850299957912_1_alg».proof.Proof.RefValue
import proofs.«152399_j53850299957912_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end with the second layer's output of the launch contents: the kernel's program by its run read boundary by
    boundary, the reference by its run; the two aggregations are one function. -/
theorem algebraic : Cert.algebraic_KernelIdeal_ReferenceIdeal := by
  intro m ρ m' ρ' _ hagree
  refine ⟨fun c => Cert.KernelIdeal.KValue.Out m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7⟩ := hagree c
  rw [e0, e1, e2, e3, e4, e5, e6, e7]
  show _ = Cert.KernelIdeal.KValue.Out m c
  unfold Cert.KernelIdeal.KValue.Out Cert.KernelIdeal.KValue.H
  rw [Cert.Bridge.agg_eq, Cert.Bridge.agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
